-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x1, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S50000x64, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x64, .f32⟩
  | 100 => ⟨S850000x1, .f32⟩
  | 101 => ⟨S850000x64, .f32⟩
  | 102 => ⟨S850000x64, .f32⟩
  | 103 => ⟨S_, .f32⟩
  | 104 => ⟨S50000x64, .f32⟩
  | 105 => ⟨S850000x1, .i32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x64, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x64, .f32⟩
  | 14 => ⟨S850000x1, .f32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S1x64, .f32⟩
  | 22 => ⟨S50000x64, .f32⟩
  | 23 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x64_S64x64_S50000x64_1_0_0_1_n_n_wf : DotDims.WF S50000x64 S64x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel program's run, with every buffer named.

  The program is six tiled regions among stretches of host operations. Its generated frame proves that every weakly
  fair execution terminates and reads the argument arrays back. The same run tells more: when it ends, every buffer
  that is not scoped to a region holds the contents the run's last boundary names (the fold of the host stretches
  and of the regions' write-backs from the launch memory). That is what a value proof needs of the result array.
-/
import proofs.«130669_j1039382086189_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer not scoped to a region
    ends at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.Run

end
-- ==== Proof.GcnSpec.lean ====
/-
  The three-layer graph convolution both programs compute, as functions of whole arrays.

  An edge list [2, 800000] over 50000 nodes is extended by one self-loop per node: `sources e` and `targets e` are the
  850000 source and target node numbers. A node's degree counts the edges that end in it, and `invSqrtDegree` is
  deg^(-1/2) where the degree is positive and 0 elsewhere. One layer multiplies the node features by a weight matrix
  (`dense`), sends along every edge the source node's row scaled by the product of the two end nodes' deg^(-1/2)
  (`edgeScale`), sums the rows arriving at each node (`aggregate`) and adds the bias to every row (`biasRows`); the first
  two layers are followed by the maximum with zero (`relu`). Every function here is spelt with the array operations of
  the host program, so that a program's own operations can be recognised in it without opening any of them.
-/
import proofs.«130669_j1039382086189_1_alg».proof.Proof.Gen.ReferenceIdeal

noncomputable section

namespace Cert.Gcn

open Idealize.ShloMosaic Cert.ReferenceIdeal Cert.ReferenceIdeal.Gen

variable {F : FTy → Type} [FloatOps F]

/-- Node numbers, one per edge. -/
abbrev EdgeIx (F : FTy → Type) [FloatOps F] : Type := (⟨S850000, .i32⟩ : BufTy).Contents (Elt F)
/-- One float per edge. -/
abbrev EdgeVal (F : FTy → Type) [FloatOps F] : Type := (⟨S850000, .f32⟩ : BufTy).Contents (Elt F)
/-- One float per node. -/
abbrev NodeVal (F : FTy → Type) [FloatOps F] : Type := (⟨S50000, .f32⟩ : BufTy).Contents (Elt F)
/-- A row of 64 features per node. -/
abbrev Feat (F : FTy → Type) [FloatOps F] : Type := (⟨S50000x64, .f32⟩ : BufTy).Contents (Elt F)
/-- A 64 by 64 weight matrix. -/
abbrev Weight (F : FTy → Type) [FloatOps F] : Type := (⟨S64x64, .f32⟩ : BufTy).Contents (Elt F)
/-- A bias vector of 64 entries. -/
abbrev Bias (F : FTy → Type) [FloatOps F] : Type := (⟨S64, .f32⟩ : BufTy).Contents (Elt F)
/-- The edge list as given: row 0 the sources, row 1 the targets. -/
abbrev Edges (F : FTy → Type) [FloatOps F] : Type := (⟨S2x800000, .i32⟩ : BufTy).Contents (Elt F)

/-- Row 0 of the edge list followed by the node numbers 0 … 49999 (the self-loops' sources). -/
def sources (e : Edges F) : EdgeIx F :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- Row 1 of the edge list followed by the node numbers 0 … 49999 (the self-loops' targets). -/
def targets (e : Edges F) : EdgeIx F :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- The number of edges ending in each node, as a float: ones summed into zeros at the targets. -/
def degree (dst : EdgeIx F) : NodeVal F :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- deg^(-1/2) where the degree is positive, 0 elsewhere. -/
def invSqrtDegree (dst : EdgeIx F) : NodeVal F :=
  select (cmpf .ogt (degree dst) (broadcastInDim S50000 ![] bcast_S_S50000 (constant S_ .f32 0x00000000#32)))
    (Host.rsqrt (degree dst))
    (broadcastInDim S50000 ![] bcast_S_S50000 (constant S_ .f32 0x00000000#32))

/-- A node number given as a negative word counts from the end: add the number of nodes. -/
def wrapIx (i : EdgeIx F) : EdgeIx F :=
  select (cmpi .slt i (broadcastInDim S850000 ![] bcast_S_S850000 (constantI S_ 32 0#32)))
    (addi i (broadcastInDim S850000 ![] bcast_S_S850000 (constantI S_ 32 50000#32))) i

/-- A per-node value read at each edge's node. -/
def atNodes (d : NodeVal F) (i : EdgeIx F) : EdgeVal F :=
  Host.gather gather_S50000_S850000x1_S850000_n_0_n_n_0_1_1 d (broadcastInDim S850000x1 ![0] bcast_S850000_S850000x1_0 (wrapIx i))

/-- The weight of an edge: the product of `d` at its two ends. -/
def edgeScale (src dst : EdgeIx F) (d : NodeVal F) : EdgeVal F := mulf (atNodes d src) (atNodes d dst)

/-- Each edge carries its source node's row times the edge's weight; the rows arriving at a node are summed. -/
def aggregate (src dst : EdgeIx F) (nrm : EdgeVal F) (h : Feat F) : Feat F :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 h (broadcastInDim S850000x1 ![0] bcast_S850000_S850000x1_0 (wrapIx src)))
      (broadcastInDim S850000x64 ![0, 1] bcast_S850000x1_S850000x64_0_1 (broadcastInDim S850000x1 ![0] bcast_S850000_S850000x1_0 nrm)))

/-- Features times weights. -/
def dense (x : Feat F) (w : Weight F) : Feat F := Host.dotGeneral dot_S50000x64_S64x64_S50000x64_1_0_0_1_n_n none x w

/-- The bias vector as one row [1, 64]. -/
def biasRow (b : Bias F) : (⟨S1x64, .f32⟩ : BufTy).Contents (Elt F) := broadcastInDim S1x64 ![1] bcast_S64_S1x64_1 b

/-- The bias added to every row. -/
def addBias (x : Feat F) (r : (⟨S1x64, .f32⟩ : BufTy).Contents (Elt F)) : Feat F :=
  addf x (broadcastInDim S50000x64 ![0, 1] bcast_S1x64_S50000x64_0_1 r)

/-- The maximum with zero. -/
def relu (x : Feat F) : Feat F := maximumf x (broadcastInDim S50000x64 ![] bcast_S_S50000x64 (constant S_ .f32 0x00000000#32))

/-- One layer without its rectifier, on given edge weights. -/
def convWith (src dst : EdgeIx F) (nrm : EdgeVal F) (x : Feat F) (w : Weight F) (b : Bias F) : Feat F :=
  addBias (aggregate src dst nrm (dense x w)) (biasRow b)

/-- The whole network on given node numbers and per-node scale. -/
def netWith (src dst : EdgeIx F) (d : NodeVal F) (x : Feat F) (w0 : Weight F) (b0 : Bias F) (w1 : Weight F) (b1 : Bias F)
    (w2 : Weight F) (b2 : Bias F) : Feat F :=
  convWith src dst (edgeScale src dst d)
    (relu (convWith src dst (edgeScale src dst d) (relu (convWith src dst (edgeScale src dst d) x w0 b0)) w1 b1)) w2 b2

/-- The whole network of the edge list and the parameters. -/
def net (e : Edges F) (x : Feat F) (w0 : Weight F) (b0 : Bias F) (w1 : Weight F) (b1 : Bias F) (w2 : Weight F) (b2 : Bias F) : Feat F :=
  netWith (sources e) (targets e) (invSqrtDegree (targets e)) x w0 b0 w1 b1 w2 b2

end Cert.Gcn

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.KRegions.lean ====
/-
  What each of the idealized kernel program's six tiled regions leaves in its output array, as a function of the
  whole arrays the region is entered with.

  Every region runs its body on ten tiles of 5000 node rows. The body's result on a tile depends only on those rows
  of the features (and on the whole second operand: the 64 by 64 weights, or the bias row), so tile t of the output is
  tile t of the layer stage applied to the whole arrays: a block of rows of a matrix product is the product of that
  block of rows, and adding a bias row or taking a maximum is entry by entry. The ten tiles cover the output, hence
  the output array ends holding the stage of the whole arrays: `dense` for regions 0, 2, 4, `relu ∘ addBias` for
  regions 1 and 3, `addBias` for region 5. A change of float format is the identity on the extended reals, which is
  why the narrowing before each product does not show. Everything is stated at an arbitrary contents `V` of the
  buffers at the region's entry.
-/
import proofs.«130669_j1039382086189_1_alg».proof.Proof.Gen.KernelIdeal.Frame
import proofs.«130669_j1039382086189_1_alg».proof.Proof.GcnSpec
import proofs.«130669_j1039382086189_1_alg».proof.Proof.LibRowBlockDot
import proofs.«130669_j1039382086189_1_alg».proof.Proof.LibBiasRows
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Cert.KernelIdeal Cert.KernelIdeal.Gen
open Idealize.ShloMosaic.Pipeline (Dat)

theorem hz : (![0, 0] : Fin 2 → Nat) = fun _ => 0 := funext fun a => by fin_cases a <;> rfl

/-! ## The bodies on a block of rows -/

/-- The host's spelling of bias-then-rectifier is the entrywise max (X(r,q) + B(0,q)) 0. -/
theorem reluBias_eq (X : FVec Ideal S50000x64 .f32) (Bw : FVec Ideal S1x64 .f32) :
    Cert.Gcn.relu (F := Ideal) (Cert.Gcn.addBias X Bw) = Cert.LibBiasRows.biasRelu X Bw :=
  Cert.LibBiasRows.hostBiasRelu X Bw Cert.ReferenceIdeal.Gen.bcast_S1x64_S50000x64_0_1 Cert.ReferenceIdeal.Gen.bcast_S_S50000x64

/-- The host's spelling of the bias is the entrywise X(r,q) + B(0,q). -/
theorem addBias_eq (X : FVec Ideal S50000x64 .f32) (Bw : FVec Ideal S1x64 .f32) :
    Cert.Gcn.addBias (F := Ideal) X Bw = Cert.LibBiasRows.biasOnly X Bw :=
  Cert.LibBiasRows.hostBiasOnly X Bw Cert.ReferenceIdeal.Gen.bcast_S1x64_S50000x64_0_1

/-- Region 0's body on a block of rows: both operands are narrowed to another float format (the identity on the
    extended reals) and multiplied into the zero block; entry j of the result is entry i of the whole product when i is
    the row that j stands for. -/
theorem densePay0 (X : FVec Ideal S50000x64 .f32) (W : FVec Ideal S64x64 .f32)
    (A : Vec Ideal S5000x64 .f32) (B : Vec Ideal S64x64 .f32) (row : Fin 5000 → Fin 50000)
    (hA : ∀ a k, A (ix2 a k) = X (ix2 (row a) k)) (hB : ∀ k b, B (ix2 k b) = W (ix2 k b))
    (j : S5000x64.Idx) (i : S50000x64.Idx) (h0 : (i 0).val = (row (j 0)).val) (h1 : (i 1).val = (j 1).val) :
    k0_pay1 (F := Ideal) A B j = Cert.Gcn.dense (F := Ideal) X W i := by
  unfold k0_pay1 Cert.Gcn.dense
  exact Cert.LibRowBlockDot.matmul_rowBlock_apply_idx none none X W (truncf .bf16 A bitsLt_bf16_f32) (truncf .bf16 B bitsLt_bf16_f32) row
    (fun a c => hA a c) (fun c b => hB c b) j i h0 h1

/-- Region 1's body on a block of rows: the bias row added to every row, then the maximum with zero. -/
theorem biasReluPay1 (X : FVec Ideal S50000x64 .f32) (Bw : FVec Ideal S1x64 .f32)
    (A : Vec Ideal S5000x64 .f32) (B : Vec Ideal S1x64 .f32) (row : Fin 5000 → Fin 50000)
    (hA : ∀ a k, A (ix2 a k) = X (ix2 (row a) k)) (hB : ∀ q, B (ix2 (0 : Fin 1) q) = Bw (ix2 (0 : Fin 1) q))
    (j : S5000x64.Idx) (i : S50000x64.Idx) (h0 : (i 0).val = (row (j 0)).val) (h1 : (i 1).val = (j 1).val) :
    k1_pay1 (F := Ideal) A B j = Cert.Gcn.relu (F := Ideal) (Cert.Gcn.addBias X Bw) i := by
  unfold k1_pay1
  rw [reluBias_eq]
  exact Cert.LibBiasRows.biasRelu_rows row X Bw A B hA hB shapeCasts_S5000x64_S5000x64 shapeCasts_S1x64_S1x64
    broadcasts_S1x64_S5000x64 j i h0 h1

/-- Region 2's body on a block of rows: an identity reshape of the rows, both operands narrowed to another float format
    (the identity on the extended reals), multiplied into the zero block. -/
theorem densePay2 (X : FVec Ideal S50000x64 .f32) (W : FVec Ideal S64x64 .f32)
    (A : Vec Ideal S5000x64 .f32) (B : Vec Ideal S64x64 .f32) (row : Fin 5000 → Fin 50000)
    (hA : ∀ a k, A (ix2 a k) = X (ix2 (row a) k)) (hB : ∀ k b, B (ix2 k b) = W (ix2 k b))
    (j : S5000x64.Idx) (i : S50000x64.Idx) (h0 : (i 0).val = (row (j 0)).val) (h1 : (i 1).val = (j 1).val) :
    k2_pay1 (F := Ideal) A B j = Cert.Gcn.dense (F := Ideal) X W i := by
  unfold k2_pay1 Cert.Gcn.dense
  exact Cert.LibRowBlockDot.matmul_rowBlock_apply_idx none none X W
    (truncf .bf16 (shapeCast S5000x64 A shapeCasts_S5000x64_S5000x64) bitsLt_bf16_f32) (truncf .bf16 B bitsLt_bf16_f32) row
    (fun a c => (congrFun (shapeCast_self A shapeCasts_S5000x64_S5000x64) (ix2 a c)).trans (hA a c)) (fun c b => hB c b) j i h0 h1

/-- Region 3's body on a block of rows: the bias row added to every row, then the maximum with zero. -/
theorem biasReluPay3 (X : FVec Ideal S50000x64 .f32) (Bw : FVec Ideal S1x64 .f32)
    (A : Vec Ideal S5000x64 .f32) (B : Vec Ideal S1x64 .f32) (row : Fin 5000 → Fin 50000)
    (hA : ∀ a k, A (ix2 a k) = X (ix2 (row a) k)) (hB : ∀ q, B (ix2 (0 : Fin 1) q) = Bw (ix2 (0 : Fin 1) q))
    (j : S5000x64.Idx) (i : S50000x64.Idx) (h0 : (i 0).val = (row (j 0)).val) (h1 : (i 1).val = (j 1).val) :
    k3_pay1 (F := Ideal) A B j = Cert.Gcn.relu (F := Ideal) (Cert.Gcn.addBias X Bw) i := by
  unfold k3_pay1
  rw [reluBias_eq]
  exact Cert.LibBiasRows.biasRelu_rows row X Bw A B hA hB shapeCasts_S5000x64_S5000x64 shapeCasts_S1x64_S1x64
    broadcasts_S1x64_S5000x64 j i h0 h1

/-- Region 4's body on a block of rows: an identity reshape of the rows, both operands narrowed to another float format
    (the identity on the extended reals), multiplied into the zero block. -/
theorem densePay4 (X : FVec Ideal S50000x64 .f32) (W : FVec Ideal S64x64 .f32)
    (A : Vec Ideal S5000x64 .f32) (B : Vec Ideal S64x64 .f32) (row : Fin 5000 → Fin 50000)
    (hA : ∀ a k, A (ix2 a k) = X (ix2 (row a) k)) (hB : ∀ k b, B (ix2 k b) = W (ix2 k b))
    (j : S5000x64.Idx) (i : S50000x64.Idx) (h0 : (i 0).val = (row (j 0)).val) (h1 : (i 1).val = (j 1).val) :
    k4_pay1 (F := Ideal) A B j = Cert.Gcn.dense (F := Ideal) X W i := by
  unfold k4_pay1 Cert.Gcn.dense
  exact Cert.LibRowBlockDot.matmul_rowBlock_apply_idx none none X W
    (truncf .bf16 (shapeCast S5000x64 A shapeCasts_S5000x64_S5000x64) bitsLt_bf16_f32) (truncf .bf16 B bitsLt_bf16_f32) row
    (fun a c => (congrFun (shapeCast_self A shapeCasts_S5000x64_S5000x64) (ix2 a c)).trans (hA a c)) (fun c b => hB c b) j i h0 h1

/-- Region 5's body on a block of rows: the bias row added to every row. -/
theorem biasPay5 (X : FVec Ideal S50000x64 .f32) (Bw : FVec Ideal S1x64 .f32)
    (A : Vec Ideal S5000x64 .f32) (B : Vec Ideal S1x64 .f32) (row : Fin 5000 → Fin 50000)
    (hA : ∀ a k, A (ix2 a k) = X (ix2 (row a) k)) (hB : ∀ q, B (ix2 (0 : Fin 1) q) = Bw (ix2 (0 : Fin 1) q))
    (j : S5000x64.Idx) (i : S50000x64.Idx) (h0 : (i 0).val = (row (j 0)).val) (h1 : (i 1).val = (j 1).val) :
    k5_pay1 (F := Ideal) A B j = Cert.Gcn.addBias (F := Ideal) X Bw i := by
  unfold k5_pay1
  rw [addBias_eq]
  exact Cert.LibBiasRows.biasOnly_rows row X Bw A B hA hB shapeCasts_S5000x64_S5000x64 shapeCasts_S1x64_S1x64
    broadcasts_S1x64_S5000x64 j i h0 h1

/-! ## The regions -/

variable (V : (c : Dev nD) → (b : Ref sig .tc) → Buf (Elt Ideal) ((c : Thread nD τ).loc b))

/-! ## Region 0: features times weights, ten tiles of 5000 rows -/

/-- The tile maps, decided over the grid: tile t of the input and of the output are rows 5000·t … 5000·t + 4999, all
    64 columns; the second operand is staged whole at every tile. -/
theorem tiles0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row tiles is some grid point's. -/
theorem tilesOnto0 : ∀ q : Fin 10, ∃ t : Fin cfg0.N, win0_2.index t = ![q.val, 0] :=
  (by decide +kernel : ∀ q : Fin 10, ∃ t : Fin grid0.N, win0_2.index t = ![q.val, 0])

/-- What grid point t writes back is tile t of the layer stage applied to the WHOLE arrays the region is entered
    with: the features' block is the rows of the tile, the weights' block is the whole matrix, and the stage treats rows independently. -/
theorem flushed0_eq (c : Dev nD) (t : Fin cfg0.N) :
    (dat0 V c).flushed 2 t = ((cfg0.win 2).blk t).view.read (Elt Ideal) (Cert.Gcn.dense (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := tiles0 t
  funext j
  refine densePay0 (V c main_arg0) (V c main_arg2) (iblk0 V c 0 t) (iblk0 V c 1 t)
    (fun a => ⟨win0_2.index t (0 : Fin 2) * 5000 + a.val, by have := a.isLt; omega⟩) ?_ ?_ j (((cfg0.win 2).blk t).view.emb j) ?_ ?_
  · intro a k
    show V c main_arg0 (((cfg0.win 0).blk t).view.emb (ix2 a k)) = V c main_arg0 _
    refine congrArg (V c main_arg0) (funext fun ax => Fin.ext ?_)
    match ax with
    | ⟨0, _⟩ => show win0_0.index t (0 : Fin 2) * 5000 + 1 * a.val = win0_2.index t (0 : Fin 2) * 5000 + a.val; omega
    | ⟨1, _⟩ => show win0_0.index t (1 : Fin 2) * 64 + 1 * k.val = k.val; omega
  · intro k b
    show V c main_arg2 (((cfg0.win 1).blk t).view.emb (ix2 k b)) = V c main_arg2 _
    refine congrArg (V c main_arg2) (funext fun ax => Fin.ext ?_)
    match ax with
    | ⟨0, _⟩ => show win0_1.index t (0 : Fin 2) * 64 + 1 * k.val = k.val; omega
    | ⟨1, _⟩ => show win0_1.index t (1 : Fin 2) * 64 + 1 * b.val = b.val; omega
  · show win0_2.index t (0 : Fin 2) * 5000 + 1 * (j 0).val = win0_2.index t (0 : Fin 2) * 5000 + (j 0).val; omega
  · show win0_2.index t (1 : Fin 2) * 64 + 1 * (j 1).val = (j 1).val; omega

/-- An index of the output array is in tile t iff each coordinate is in the tile's range on its axis. -/
theorem memTile0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the output lies in tile r / 5000: the ten tiles cover the array. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := tilesOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [memTile0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's output array after its ten write-backs is the layer stage of the whole arrays it was entered with. -/
theorem final0 (c : Dev nD) : (dat0 V c).arrAt 2 cfg0.N = Cert.Gcn.dense (F := Ideal) (V c main_arg0) (V c main_arg2) :=
  (dat0 V c).arrAt_eq_of_cover 2 _ (fun t _ => flushed0_eq V c t) cover0

/-! ## Region 1: bias, then the maximum with zero, ten tiles of 5000 rows -/

/-- The tile maps, decided over the grid: tile t of the input and of the output are rows 5000·t … 5000·t + 4999, all
    64 columns; the second operand is staged whole at every tile. -/
theorem tiles1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row tiles is some grid point's. -/
theorem tilesOnto1 : ∀ q : Fin 10, ∃ t : Fin cfg1.N, win1_2.index t = ![q.val, 0] :=
  (by decide +kernel : ∀ q : Fin 10, ∃ t : Fin grid1.N, win1_2.index t = ![q.val, 0])

/-- What grid point t writes back is tile t of the layer stage applied to the WHOLE arrays the region is entered
    with: the features' block is the rows of the tile, the bias row's block is the whole row, and the stage treats rows independently. -/
theorem flushed1_eq (c : Dev nD) (t : Fin cfg1.N) :
    (dat1 V c).flushed 2 t = ((cfg1.win 2).blk t).view.read (Elt Ideal) (Cert.Gcn.relu (F := Ideal) (Cert.Gcn.addBias (V c main_v43) (V c main_v44))) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := tiles1 t
  funext j
  refine biasReluPay1 (V c main_v43) (V c main_v44) (iblk1 V c 0 t) (iblk1 V c 1 t)
    (fun a => ⟨win1_2.index t (0 : Fin 2) * 5000 + a.val, by have := a.isLt; omega⟩) ?_ ?_ j (((cfg1.win 2).blk t).view.emb j) ?_ ?_
  · intro a k
    show V c main_v43 (((cfg1.win 0).blk t).view.emb (ix2 a k)) = V c main_v43 _
    refine congrArg (V c main_v43) (funext fun ax => Fin.ext ?_)
    match ax with
    | ⟨0, _⟩ => show win1_0.index t (0 : Fin 2) * 5000 + 1 * a.val = win1_2.index t (0 : Fin 2) * 5000 + a.val; omega
    | ⟨1, _⟩ => show win1_0.index t (1 : Fin 2) * 64 + 1 * k.val = k.val; omega
  · intro q
    show V c main_v44 (((cfg1.win 1).blk t).view.emb (ix2 (0 : Fin 1) q)) = V c main_v44 _
    refine congrArg (V c main_v44) (funext fun ax => Fin.ext ?_)
    match ax with
    | ⟨0, _⟩ => show win1_1.index t (0 : Fin 2) * 1 + 1 * 0 = 0; omega
    | ⟨1, _⟩ => show win1_1.index t (1 : Fin 2) * 64 + 1 * q.val = q.val; omega
  · show win1_2.index t (0 : Fin 2) * 5000 + 1 * (j 0).val = win1_2.index t (0 : Fin 2) * 5000 + (j 0).val; omega
  · show win1_2.index t (1 : Fin 2) * 64 + 1 * (j 1).val = (j 1).val; omega

/-- An index of the output array is in tile t iff each coordinate is in the tile's range on its axis. -/
theorem memTile1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row r of the output lies in tile r / 5000: the ten tiles cover the array. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := tilesOnto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [memTile1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The region's output array after its ten write-backs is the layer stage of the whole arrays it was entered with. -/
theorem final1 (c : Dev nD) : (dat1 V c).arrAt 2 cfg1.N = Cert.Gcn.relu (F := Ideal) (Cert.Gcn.addBias (V c main_v43) (V c main_v44)) :=
  (dat1 V c).arrAt_eq_of_cover 2 _ (fun t _ => flushed1_eq V c t) cover1

/-! ## Region 2: features times weights, ten tiles of 5000 rows -/

/-- The tile maps, decided over the grid: tile t of the input and of the output are rows 5000·t … 5000·t + 4999, all
    64 columns; the second operand is staged whole at every tile. -/
theorem tiles2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row tiles is some grid point's. -/
theorem tilesOnto2 : ∀ q : Fin 10, ∃ t : Fin cfg2.N, win2_2.index t = ![q.val, 0] :=
  (by decide +kernel : ∀ q : Fin 10, ∃ t : Fin grid2.N, win2_2.index t = ![q.val, 0])

/-- What grid point t writes back is tile t of the layer stage applied to the WHOLE arrays the region is entered
    with: the features' block is the rows of the tile, the weights' block is the whole matrix, and the stage treats rows independently. -/
theorem flushed2_eq (c : Dev nD) (t : Fin cfg2.N) :
    (dat2 V c).flushed 2 t = ((cfg2.win 2).blk t).view.read (Elt Ideal) (Cert.Gcn.dense (F := Ideal) (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := tiles2 t
  funext j
  refine densePay2 (V c main_v45) (V c main_arg4) (iblk2 V c 0 t) (iblk2 V c 1 t)
    (fun a => ⟨win2_2.index t (0 : Fin 2) * 5000 + a.val, by have := a.isLt; omega⟩) ?_ ?_ j (((cfg2.win 2).blk t).view.emb j) ?_ ?_
  · intro a k
    show V c main_v45 (((cfg2.win 0).blk t).view.emb (ix2 a k)) = V c main_v45 _
    refine congrArg (V c main_v45) (funext fun ax => Fin.ext ?_)
    match ax with
    | ⟨0, _⟩ => show win2_0.index t (0 : Fin 2) * 5000 + 1 * a.val = win2_2.index t (0 : Fin 2) * 5000 + a.val; omega
    | ⟨1, _⟩ => show win2_0.index t (1 : Fin 2) * 64 + 1 * k.val = k.val; omega
  · intro k b
    show V c main_arg4 (((cfg2.win 1).blk t).view.emb (ix2 k b)) = V c main_arg4 _
    refine congrArg (V c main_arg4) (funext fun ax => Fin.ext ?_)
    match ax with
    | ⟨0, _⟩ => show win2_1.index t (0 : Fin 2) * 64 + 1 * k.val = k.val; omega
    | ⟨1, _⟩ => show win2_1.index t (1 : Fin 2) * 64 + 1 * b.val = b.val; omega
  · show win2_2.index t (0 : Fin 2) * 5000 + 1 * (j 0).val = win2_2.index t (0 : Fin 2) * 5000 + (j 0).val; omega
  · show win2_2.index t (1 : Fin 2) * 64 + 1 * (j 1).val = (j 1).val; omega

/-- An index of the output array is in tile t iff each coordinate is in the tile's range on its axis. -/
theorem memTile2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row r of the output lies in tile r / 5000: the ten tiles cover the array. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := tilesOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [memTile2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's output array after its ten write-backs is the layer stage of the whole arrays it was entered with. -/
theorem final2 (c : Dev nD) : (dat2 V c).arrAt 2 cfg2.N = Cert.Gcn.dense (F := Ideal) (V c main_v45) (V c main_arg4) :=
  (dat2 V c).arrAt_eq_of_cover 2 _ (fun t _ => flushed2_eq V c t) cover2

/-! ## Region 3: bias, then the maximum with zero, ten tiles of 5000 rows -/

/-- The tile maps, decided over the grid: tile t of the input and of the output are rows 5000·t … 5000·t + 4999, all
    64 columns; the second operand is staged whole at every tile. -/
theorem tiles3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row tiles is some grid point's. -/
theorem tilesOnto3 : ∀ q : Fin 10, ∃ t : Fin cfg3.N, win3_2.index t = ![q.val, 0] :=
  (by decide +kernel : ∀ q : Fin 10, ∃ t : Fin grid3.N, win3_2.index t = ![q.val, 0])

/-- What grid point t writes back is tile t of the layer stage applied to the WHOLE arrays the region is entered
    with: the features' block is the rows of the tile, the bias row's block is the whole row, and the stage treats rows independently. -/
theorem flushed3_eq (c : Dev nD) (t : Fin cfg3.N) :
    (dat3 V c).flushed 2 t = ((cfg3.win 2).blk t).view.read (Elt Ideal) (Cert.Gcn.relu (F := Ideal) (Cert.Gcn.addBias (V c main_v59) (V c main_v60))) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := tiles3 t
  funext j
  refine biasReluPay3 (V c main_v59) (V c main_v60) (iblk3 V c 0 t) (iblk3 V c 1 t)
    (fun a => ⟨win3_2.index t (0 : Fin 2) * 5000 + a.val, by have := a.isLt; omega⟩) ?_ ?_ j (((cfg3.win 2).blk t).view.emb j) ?_ ?_
  · intro a k
    show V c main_v59 (((cfg3.win 0).blk t).view.emb (ix2 a k)) = V c main_v59 _
    refine congrArg (V c main_v59) (funext fun ax => Fin.ext ?_)
    match ax with
    | ⟨0, _⟩ => show win3_0.index t (0 : Fin 2) * 5000 + 1 * a.val = win3_2.index t (0 : Fin 2) * 5000 + a.val; omega
    | ⟨1, _⟩ => show win3_0.index t (1 : Fin 2) * 64 + 1 * k.val = k.val; omega
  · intro q
    show V c main_v60 (((cfg3.win 1).blk t).view.emb (ix2 (0 : Fin 1) q)) = V c main_v60 _
    refine congrArg (V c main_v60) (funext fun ax => Fin.ext ?_)
    match ax with
    | ⟨0, _⟩ => show win3_1.index t (0 : Fin 2) * 1 + 1 * 0 = 0; omega
    | ⟨1, _⟩ => show win3_1.index t (1 : Fin 2) * 64 + 1 * q.val = q.val; omega
  · show win3_2.index t (0 : Fin 2) * 5000 + 1 * (j 0).val = win3_2.index t (0 : Fin 2) * 5000 + (j 0).val; omega
  · show win3_2.index t (1 : Fin 2) * 64 + 1 * (j 1).val = (j 1).val; omega

/-- An index of the output array is in tile t iff each coordinate is in the tile's range on its axis. -/
theorem memTile3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Row r of the output lies in tile r / 5000: the ten tiles cover the array. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := tilesOnto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [memTile3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The region's output array after its ten write-backs is the layer stage of the whole arrays it was entered with. -/
theorem final3 (c : Dev nD) : (dat3 V c).arrAt 2 cfg3.N = Cert.Gcn.relu (F := Ideal) (Cert.Gcn.addBias (V c main_v59) (V c main_v60)) :=
  (dat3 V c).arrAt_eq_of_cover 2 _ (fun t _ => flushed3_eq V c t) cover3

/-! ## Region 4: features times weights, ten tiles of 5000 rows -/

/-- The tile maps, decided over the grid: tile t of the input and of the output are rows 5000·t … 5000·t + 4999, all
    64 columns; the second operand is staged whole at every tile. -/
theorem tiles4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten row tiles is some grid point's. -/
theorem tilesOnto4 : ∀ q : Fin 10, ∃ t : Fin cfg4.N, win4_2.index t = ![q.val, 0] :=
  (by decide +kernel : ∀ q : Fin 10, ∃ t : Fin grid4.N, win4_2.index t = ![q.val, 0])

/-- What grid point t writes back is tile t of the layer stage applied to the WHOLE arrays the region is entered
    with: the features' block is the rows of the tile, the weights' block is the whole matrix, and the stage treats rows independently. -/
theorem flushed4_eq (c : Dev nD) (t : Fin cfg4.N) :
    (dat4 V c).flushed 2 t = ((cfg4.win 2).blk t).view.read (Elt Ideal) (Cert.Gcn.dense (F := Ideal) (V c main_v61) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := tiles4 t
  funext j
  refine densePay4 (V c main_v61) (V c main_arg6) (iblk4 V c 0 t) (iblk4 V c 1 t)
    (fun a => ⟨win4_2.index t (0 : Fin 2) * 5000 + a.val, by have := a.isLt; omega⟩) ?_ ?_ j (((cfg4.win 2).blk t).view.emb j) ?_ ?_
  · intro a k
    show V c main_v61 (((cfg4.win 0).blk t).view.emb (ix2 a k)) = V c main_v61 _
    refine congrArg (V c main_v61) (funext fun ax => Fin.ext ?_)
    match ax with
    | ⟨0, _⟩ => show win4_0.index t (0 : Fin 2) * 5000 + 1 * a.val = win4_2.index t (0 : Fin 2) * 5000 + a.val; omega
    | ⟨1, _⟩ => show win4_0.index t (1 : Fin 2) * 64 + 1 * k.val = k.val; omega
  · intro k b
    show V c main_arg6 (((cfg4.win 1).blk t).view.emb (ix2 k b)) = V c main_arg6 _
    refine congrArg (V c main_arg6) (funext fun ax => Fin.ext ?_)
    match ax with
    | ⟨0, _⟩ => show win4_1.index t (0 : Fin 2) * 64 + 1 * k.val = k.val; omega
    | ⟨1, _⟩ => show win4_1.index t (1 : Fin 2) * 64 + 1 * b.val = b.val; omega
  · show win4_2.index t (0 : Fin 2) * 5000 + 1 * (j 0).val = win4_2.index t (0 : Fin 2) * 5000 + (j 0).val; omega
  · show win4_2.index t (1 : Fin 2) * 64 + 1 * (j 1).val = (j 1).val; omega

/-- An index of the output array is in tile t iff each coordinate is in the tile's range on its axis. -/
theorem memTile4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Row r of the output lies in tile r / 5000: the ten tiles cover the array. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := tilesOnto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [memTile4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The region's output array after its ten write-backs is the layer stage of the whole arrays it was entered with. -/
theorem final4 (c : Dev nD) : (dat4 V c).arrAt 2 cfg4.N = Cert.Gcn.dense (F := Ideal) (V c main_v61) (V c main_arg6) :=
  (dat4 V c).arrAt_eq_of_cover 2 _ (fun t _ => flushed4_eq V c t) cover4

/-! ## Region 5: bias, ten tiles of 5000 rows -/

/-- The tile maps, decided over the grid: tile t of the input and of the output are rows 5000·t … 5000·t + 4999, all
    64 columns; the second operand is staged whole at every tile. -/
theorem tiles5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the ten row tiles is some grid point's. -/
theorem tilesOnto5 : ∀ q : Fin 10, ∃ t : Fin cfg5.N, win5_2.index t = ![q.val, 0] :=
  (by decide +kernel : ∀ q : Fin 10, ∃ t : Fin grid5.N, win5_2.index t = ![q.val, 0])

/-- What grid point t writes back is tile t of the layer stage applied to the WHOLE arrays the region is entered
    with: the features' block is the rows of the tile, the bias row's block is the whole row, and the stage treats rows independently. -/
theorem flushed5_eq (c : Dev nD) (t : Fin cfg5.N) :
    (dat5 V c).flushed 2 t = ((cfg5.win 2).blk t).view.read (Elt Ideal) (Cert.Gcn.addBias (F := Ideal) (V c main_v75) (V c main_v76)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := tiles5 t
  funext j
  refine biasPay5 (V c main_v75) (V c main_v76) (iblk5 V c 0 t) (iblk5 V c 1 t)
    (fun a => ⟨win5_2.index t (0 : Fin 2) * 5000 + a.val, by have := a.isLt; omega⟩) ?_ ?_ j (((cfg5.win 2).blk t).view.emb j) ?_ ?_
  · intro a k
    show V c main_v75 (((cfg5.win 0).blk t).view.emb (ix2 a k)) = V c main_v75 _
    refine congrArg (V c main_v75) (funext fun ax => Fin.ext ?_)
    match ax with
    | ⟨0, _⟩ => show win5_0.index t (0 : Fin 2) * 5000 + 1 * a.val = win5_2.index t (0 : Fin 2) * 5000 + a.val; omega
    | ⟨1, _⟩ => show win5_0.index t (1 : Fin 2) * 64 + 1 * k.val = k.val; omega
  · intro q
    show V c main_v76 (((cfg5.win 1).blk t).view.emb (ix2 (0 : Fin 1) q)) = V c main_v76 _
    refine congrArg (V c main_v76) (funext fun ax => Fin.ext ?_)
    match ax with
    | ⟨0, _⟩ => show win5_1.index t (0 : Fin 2) * 1 + 1 * 0 = 0; omega
    | ⟨1, _⟩ => show win5_1.index t (1 : Fin 2) * 64 + 1 * q.val = q.val; omega
  · show win5_2.index t (0 : Fin 2) * 5000 + 1 * (j 0).val = win5_2.index t (0 : Fin 2) * 5000 + (j 0).val; omega
  · show win5_2.index t (1 : Fin 2) * 64 + 1 * (j 1).val = (j 1).val; omega

/-- An index of the output array is in tile t iff each coordinate is in the tile's range on its axis. -/
theorem memTile5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- Row r of the output lies in tile r / 5000: the ten tiles cover the array. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := tilesOnto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [memTile5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The region's output array after its ten write-backs is the layer stage of the whole arrays it was entered with. -/
theorem final5 (c : Dev nD) : (dat5 V c).arrAt 2 cfg5.N = Cert.Gcn.addBias (F := Ideal) (V c main_v75) (V c main_v76) :=
  (dat5 V c).arrAt_eq_of_cover 2 _ (fun t _ => flushed5_eq V c t) cover5

end Cert.KernelIdeal.Regions

end
-- ==== Proof.KHost.lean ====
/-
  The host stretches of the idealized kernel program, read as array functions of the buffers they start from.

  Between its tiled regions the program runs plain array operations: before the first region it builds the edges'
  source and target node numbers (the edge list with one self-loop per node appended), the nodes' deg^(-1/2) and from
  it each edge's weight; before each bias region it gathers the product's rows at the edges' sources, scales them by
  the edges' weights, sums them into the targets' rows, and reshapes that layer's bias vector to one row. Each lemma
  here reads one buffer after one stretch, from ANY starting contents `V` of the buffers: either as one of the
  network's functions of a few buffers of `V`, or — for a buffer the stretch does not write — as `V`'s own.
-/
import proofs.«130669_j1039382086189_1_alg».proof.Proof.Gen.KernelIdeal.Launch
import proofs.«130669_j1039382086189_1_alg».proof.Proof.GcnSpec
import Idealize.ShloMosaic.Lib.StableHlo.Run

set_option maxRecDepth 16384
set_option maxHeartbeats 4000000

noncomputable section

namespace Cert.KernelIdeal.Host

open Idealize.ShloMosaic Idealize.ShloMosaic.TcCoe Idealize.SL.Sem
open Cert.KernelIdeal Cert.KernelIdeal.Gen
open Idealize.ShloMosaic.StableHlo

variable {F : FTy → Type} [FloatOps F]

/-! ## Before the first region: node numbers, degrees, edge weights -/

/-- The first stretch leaves the edges' source node numbers in `main_v3`. -/
theorem pre_src (V : Valuation τ sig (Elt F)) :
    StableHlo.after (hostOps0 (F := F)) V (Proc.devRef .tc main_v3) = Cert.Gcn.sources (V (Proc.devRef .tc main_arg1)) := by
  after_results
  rfl

/-- … the edges' target node numbers in `main_v6`. -/
theorem pre_dst (V : Valuation τ sig (Elt F)) :
    StableHlo.after (hostOps0 (F := F)) V (Proc.devRef .tc main_v6) = Cert.Gcn.targets (V (Proc.devRef .tc main_arg1)) := by
  after_results
  rfl

/-- … whether each node's degree is positive in `main_v12`. -/
theorem pre_pos (V : Valuation τ sig (Elt F)) :
    StableHlo.after (hostOps0 (F := F)) V (Proc.devRef .tc main_v12)
      = cmpf .ogt (Cert.Gcn.degree (Cert.Gcn.targets (V (Proc.devRef .tc main_arg1))))
          (broadcastInDim S50000 ![] bcast_S_S50000 (constant S_ .f32 0x00000000#32)) := by
  after_results
  rfl

/-- … each node's degree to the power -1/2 in `main_v13`. -/
theorem pre_rsqrt (V : Valuation τ sig (Elt F)) :
    StableHlo.after (hostOps0 (F := F)) V (Proc.devRef .tc main_v13)
      = Host.rsqrt (Cert.Gcn.degree (Cert.Gcn.targets (V (Proc.devRef .tc main_arg1)))) := by
  after_results
  rfl

/-- … and the float zero in `main_cst_2`. -/
theorem pre_zero (V : Valuation τ sig (Elt F)) :
    StableHlo.after (hostOps0 (F := F)) V (Proc.devRef .tc main_cst_2) = constant S_ .f32 0x00000000#32 := by
  after_results

theorem pre_keep_arg0 (V : Valuation τ sig (Elt F)) :
    StableHlo.after (hostOps0 (F := F)) V (Proc.devRef .tc main_arg0) = V (Proc.devRef .tc main_arg0) := by after_results_simp
theorem pre_keep_arg2 (V : Valuation τ sig (Elt F)) :
    StableHlo.after (hostOps0 (F := F)) V (Proc.devRef .tc main_arg2) = V (Proc.devRef .tc main_arg2) := by after_results_simp
theorem pre_keep_arg3 (V : Valuation τ sig (Elt F)) :
    StableHlo.after (hostOps0 (F := F)) V (Proc.devRef .tc main_arg3) = V (Proc.devRef .tc main_arg3) := by after_results_simp
theorem pre_keep_arg4 (V : Valuation τ sig (Elt F)) :
    StableHlo.after (hostOps0 (F := F)) V (Proc.devRef .tc main_arg4) = V (Proc.devRef .tc main_arg4) := by after_results_simp
theorem pre_keep_arg5 (V : Valuation τ sig (Elt F)) :
    StableHlo.after (hostOps0 (F := F)) V (Proc.devRef .tc main_arg5) = V (Proc.devRef .tc main_arg5) := by after_results_simp
theorem pre_keep_arg6 (V : Valuation τ sig (Elt F)) :
    StableHlo.after (hostOps0 (F := F)) V (Proc.devRef .tc main_arg6) = V (Proc.devRef .tc main_arg6) := by after_results_simp
theorem pre_keep_arg7 (V : Valuation τ sig (Elt F)) :
    StableHlo.after (hostOps0 (F := F)) V (Proc.devRef .tc main_arg7) = V (Proc.devRef .tc main_arg7) := by after_results_simp

/-- The second stretch (the outlined `where`) selects deg^(-1/2) where the degree is positive and zero elsewhere. -/
theorem where_val (V : Valuation τ sig (Elt F)) :
    StableHlo.after (hostOps0_1 (F := F)) V (Proc.devRef .tc main_v14)
      = select (V (Proc.devRef .tc main_v12)) (V (Proc.devRef .tc main_v13))
          (broadcastInDim S50000 ![] bcast_S_S50000 (V (Proc.devRef .tc main_cst_2))) := by
  after_results_simp
  rfl

theorem where_keep_v3 (V : Valuation τ sig (Elt F)) :
    StableHlo.after (hostOps0_1 (F := F)) V (Proc.devRef .tc main_v3) = V (Proc.devRef .tc main_v3) := by after_results_simp
theorem where_keep_v6 (V : Valuation τ sig (Elt F)) :
    StableHlo.after (hostOps0_1 (F := F)) V (Proc.devRef .tc main_v6) = V (Proc.devRef .tc main_v6) := by after_results_simp
theorem where_keep_arg0 (V : Valuation τ sig (Elt F)) :
    StableHlo.after (hostOps0_1 (F := F)) V (Proc.devRef .tc main_arg0) = V (Proc.devRef .tc main_arg0) := by after_results_simp
theorem where_keep_arg2 (V : Valuation τ sig (Elt F)) :
    StableHlo.after (hostOps0_1 (F := F)) V (Proc.devRef .tc main_arg2) = V (Proc.devRef .tc main_arg2) := by after_results_simp
theorem where_keep_arg3 (V : Valuation τ sig (Elt F)) :
    StableHlo.after (hostOps0_1 (F := F)) V (Proc.devRef .tc main_arg3) = V (Proc.devRef .tc main_arg3) := by after_results_simp
theorem where_keep_arg4 (V : Valuation τ sig (Elt F)) :
    StableHlo.after (hostOps0_1 (F := F)) V (Proc.devRef .tc main_arg4) = V (Proc.devRef .tc main_arg4) := by after_results_simp
theorem where_keep_arg5 (V : Valuation τ sig (Elt F)) :
    StableHlo.after (hostOps0_1 (F := F)) V (Proc.devRef .tc main_arg5) = V (Proc.devRef .tc main_arg5) := by after_results_simp
theorem where_keep_arg6 (V : Valuation τ sig (Elt F)) :
    StableHlo.after (hostOps0_1 (F := F)) V (Proc.devRef .tc main_arg6) = V (Proc.devRef .tc main_arg6) := by after_results_simp
theorem where_keep_arg7 (V : Valuation τ sig (Elt F)) :
    StableHlo.after (hostOps0_1 (F := F)) V (Proc.devRef .tc main_arg7) = V (Proc.devRef .tc main_arg7) := by after_results_simp

/-- The third stretch multiplies, per edge, the per-node scale at the edge's two ends. -/
theorem scale_val (V : Valuation τ sig (Elt F)) :
    StableHlo.after (hostOps0_2 (F := F)) V (Proc.devRef .tc main_v29)
      = Cert.Gcn.edgeScale (V (Proc.devRef .tc main_v3)) (V (Proc.devRef .tc main_v6)) (V (Proc.devRef .tc main_v14)) := by
  after_results_simp
  rfl

theorem scale_keep_v3 (V : Valuation τ sig (Elt F)) :
    StableHlo.after (hostOps0_2 (F := F)) V (Proc.devRef .tc main_v3) = V (Proc.devRef .tc main_v3) := by after_results_simp
theorem scale_keep_v6 (V : Valuation τ sig (Elt F)) :
    StableHlo.after (hostOps0_2 (F := F)) V (Proc.devRef .tc main_v6) = V (Proc.devRef .tc main_v6) := by after_results_simp
theorem scale_keep_arg0 (V : Valuation τ sig (Elt F)) :
    StableHlo.after (hostOps0_2 (F := F)) V (Proc.devRef .tc main_arg0) = V (Proc.devRef .tc main_arg0) := by after_results_simp
theorem scale_keep_arg2 (V : Valuation τ sig (Elt F)) :
    StableHlo.after (hostOps0_2 (F := F)) V (Proc.devRef .tc main_arg2) = V (Proc.devRef .tc main_arg2) := by after_results_simp
theorem scale_keep_arg3 (V : Valuation τ sig (Elt F)) :
    StableHlo.after (hostOps0_2 (F := F)) V (Proc.devRef .tc main_arg3) = V (Proc.devRef .tc main_arg3) := by after_results_simp
theorem scale_keep_arg4 (V : Valuation τ sig (Elt F)) :
    StableHlo.after (hostOps0_2 (F := F)) V (Proc.devRef .tc main_arg4) = V (Proc.devRef .tc main_arg4) := by after_results_simp
theorem scale_keep_arg5 (V : Valuation τ sig (Elt F)) :
    StableHlo.after (hostOps0_2 (F := F)) V (Proc.devRef .tc main_arg5) = V (Proc.devRef .tc main_arg5) := by after_results_simp
theorem scale_keep_arg6 (V : Valuation τ sig (Elt F)) :
    StableHlo.after (hostOps0_2 (F := F)) V (Proc.devRef .tc main_arg6) = V (Proc.devRef .tc main_arg6) := by after_results_simp
theorem scale_keep_arg7 (V : Valuation τ sig (Elt F)) :
    StableHlo.after (hostOps0_2 (F := F)) V (Proc.devRef .tc main_arg7) = V (Proc.devRef .tc main_arg7) := by after_results_simp

/-! ## The stretch `hostOps1` -/

/-- The stretch gathers the rows of the features at the edges' sources, scales them by the edges' weights and sums them
    into the targets' rows. -/
theorem l1_agg (V : Valuation τ sig (Elt F)) :
    StableHlo.after (hostOps1 (F := F)) V (Proc.devRef .tc main_v43)
      = Cert.Gcn.aggregate (V (Proc.devRef .tc main_v3)) (V (Proc.devRef .tc main_v6)) (V (Proc.devRef .tc main_v29)) (V (Proc.devRef .tc main_v30)) := by
  after_results_simp
  rfl

/-- The stretch reshapes the layer's bias vector to one row. -/
theorem l1_row (V : Valuation τ sig (Elt F)) :
    StableHlo.after (hostOps1 (F := F)) V (Proc.devRef .tc main_v44) = shapeCast S1x64 (V (Proc.devRef .tc main_arg3)) shapeCasts_S64_S1x64 := by
  after_results_simp
  rfl

theorem l1_keep_v3 (V : Valuation τ sig (Elt F)) :
    StableHlo.after (hostOps1 (F := F)) V (Proc.devRef .tc main_v3) = V (Proc.devRef .tc main_v3) := by after_results_simp
theorem l1_keep_v6 (V : Valuation τ sig (Elt F)) :
    StableHlo.after (hostOps1 (F := F)) V (Proc.devRef .tc main_v6) = V (Proc.devRef .tc main_v6) := by after_results_simp
theorem l1_keep_v29 (V : Valuation τ sig (Elt F)) :
    StableHlo.after (hostOps1 (F := F)) V (Proc.devRef .tc main_v29) = V (Proc.devRef .tc main_v29) := by after_results_simp
theorem l1_keep_arg0 (V : Valuation τ sig (Elt F)) :
    StableHlo.after (hostOps1 (F := F)) V (Proc.devRef .tc main_arg0) = V (Proc.devRef .tc main_arg0) := by after_results_simp
theorem l1_keep_arg2 (V : Valuation τ sig (Elt F)) :
    StableHlo.after (hostOps1 (F := F)) V (Proc.devRef .tc main_arg2) = V (Proc.devRef .tc main_arg2) := by after_results_simp
theorem l1_keep_arg3 (V : Valuation τ sig (Elt F)) :
    StableHlo.after (hostOps1 (F := F)) V (Proc.devRef .tc main_arg3) = V (Proc.devRef .tc main_arg3) := by after_results_simp
theorem l1_keep_arg4 (V : Valuation τ sig (Elt F)) :
    StableHlo.after (hostOps1 (F := F)) V (Proc.devRef .tc main_arg4) = V (Proc.devRef .tc main_arg4) := by after_results_simp
theorem l1_keep_arg5 (V : Valuation τ sig (Elt F)) :
    StableHlo.after (hostOps1 (F := F)) V (Proc.devRef .tc main_arg5) = V (Proc.devRef .tc main_arg5) := by after_results_simp
theorem l1_keep_arg6 (V : Valuation τ sig (Elt F)) :
    StableHlo.after (hostOps1 (F := F)) V (Proc.devRef .tc main_arg6) = V (Proc.devRef .tc main_arg6) := by after_results_simp
theorem l1_keep_arg7 (V : Valuation τ sig (Elt F)) :
    StableHlo.after (hostOps1 (F := F)) V (Proc.devRef .tc main_arg7) = V (Proc.devRef .tc main_arg7) := by after_results_simp

/-! ## The stretch `hostOps3` -/

/-- The stretch gathers the rows of the features at the edges' sources, scales them by the edges' weights and sums them
    into the targets' rows. -/
theorem l2_agg (V : Valuation τ sig (Elt F)) :
    StableHlo.after (hostOps3 (F := F)) V (Proc.devRef .tc main_v59)
      = Cert.Gcn.aggregate (V (Proc.devRef .tc main_v3)) (V (Proc.devRef .tc main_v6)) (V (Proc.devRef .tc main_v29)) (V (Proc.devRef .tc main_v46)) := by
  after_results_simp
  rfl

/-- The stretch reshapes the layer's bias vector to one row. -/
theorem l2_row (V : Valuation τ sig (Elt F)) :
    StableHlo.after (hostOps3 (F := F)) V (Proc.devRef .tc main_v60) = shapeCast S1x64 (V (Proc.devRef .tc main_arg5)) shapeCasts_S64_S1x64 := by
  after_results_simp
  rfl

theorem l2_keep_v3 (V : Valuation τ sig (Elt F)) :
    StableHlo.after (hostOps3 (F := F)) V (Proc.devRef .tc main_v3) = V (Proc.devRef .tc main_v3) := by after_results_simp
theorem l2_keep_v6 (V : Valuation τ sig (Elt F)) :
    StableHlo.after (hostOps3 (F := F)) V (Proc.devRef .tc main_v6) = V (Proc.devRef .tc main_v6) := by after_results_simp
theorem l2_keep_v29 (V : Valuation τ sig (Elt F)) :
    StableHlo.after (hostOps3 (F := F)) V (Proc.devRef .tc main_v29) = V (Proc.devRef .tc main_v29) := by after_results_simp
theorem l2_keep_arg0 (V : Valuation τ sig (Elt F)) :
    StableHlo.after (hostOps3 (F := F)) V (Proc.devRef .tc main_arg0) = V (Proc.devRef .tc main_arg0) := by after_results_simp
theorem l2_keep_arg2 (V : Valuation τ sig (Elt F)) :
    StableHlo.after (hostOps3 (F := F)) V (Proc.devRef .tc main_arg2) = V (Proc.devRef .tc main_arg2) := by after_results_simp
theorem l2_keep_arg3 (V : Valuation τ sig (Elt F)) :
    StableHlo.after (hostOps3 (F := F)) V (Proc.devRef .tc main_arg3) = V (Proc.devRef .tc main_arg3) := by after_results_simp
theorem l2_keep_arg4 (V : Valuation τ sig (Elt F)) :
    StableHlo.after (hostOps3 (F := F)) V (Proc.devRef .tc main_arg4) = V (Proc.devRef .tc main_arg4) := by after_results_simp
theorem l2_keep_arg5 (V : Valuation τ sig (Elt F)) :
    StableHlo.after (hostOps3 (F := F)) V (Proc.devRef .tc main_arg5) = V (Proc.devRef .tc main_arg5) := by after_results_simp
theorem l2_keep_arg6 (V : Valuation τ sig (Elt F)) :
    StableHlo.after (hostOps3 (F := F)) V (Proc.devRef .tc main_arg6) = V (Proc.devRef .tc main_arg6) := by after_results_simp
theorem l2_keep_arg7 (V : Valuation τ sig (Elt F)) :
    StableHlo.after (hostOps3 (F := F)) V (Proc.devRef .tc main_arg7) = V (Proc.devRef .tc main_arg7) := by after_results_simp

/-! ## The stretch `hostOps5` -/

/-- The stretch gathers the rows of the features at the edges' sources, scales them by the edges' weights and sums them
    into the targets' rows. -/
theorem l3_agg (V : Valuation τ sig (Elt F)) :
    StableHlo.after (hostOps5 (F := F)) V (Proc.devRef .tc main_v75)
      = Cert.Gcn.aggregate (V (Proc.devRef .tc main_v3)) (V (Proc.devRef .tc main_v6)) (V (Proc.devRef .tc main_v29)) (V (Proc.devRef .tc main_v62)) := by
  after_results_simp
  rfl

/-- The stretch reshapes the layer's bias vector to one row. -/
theorem l3_row (V : Valuation τ sig (Elt F)) :
    StableHlo.after (hostOps5 (F := F)) V (Proc.devRef .tc main_v76) = shapeCast S1x64 (V (Proc.devRef .tc main_arg7)) shapeCasts_S64_S1x64 := by
  after_results_simp
  rfl

theorem l3_keep_v3 (V : Valuation τ sig (Elt F)) :
    StableHlo.after (hostOps5 (F := F)) V (Proc.devRef .tc main_v3) = V (Proc.devRef .tc main_v3) := by after_results_simp
theorem l3_keep_v6 (V : Valuation τ sig (Elt F)) :
    StableHlo.after (hostOps5 (F := F)) V (Proc.devRef .tc main_v6) = V (Proc.devRef .tc main_v6) := by after_results_simp
theorem l3_keep_v29 (V : Valuation τ sig (Elt F)) :
    StableHlo.after (hostOps5 (F := F)) V (Proc.devRef .tc main_v29) = V (Proc.devRef .tc main_v29) := by after_results_simp
theorem l3_keep_arg0 (V : Valuation τ sig (Elt F)) :
    StableHlo.after (hostOps5 (F := F)) V (Proc.devRef .tc main_arg0) = V (Proc.devRef .tc main_arg0) := by after_results_simp
theorem l3_keep_arg2 (V : Valuation τ sig (Elt F)) :
    StableHlo.after (hostOps5 (F := F)) V (Proc.devRef .tc main_arg2) = V (Proc.devRef .tc main_arg2) := by after_results_simp
theorem l3_keep_arg3 (V : Valuation τ sig (Elt F)) :
    StableHlo.after (hostOps5 (F := F)) V (Proc.devRef .tc main_arg3) = V (Proc.devRef .tc main_arg3) := by after_results_simp
theorem l3_keep_arg4 (V : Valuation τ sig (Elt F)) :
    StableHlo.after (hostOps5 (F := F)) V (Proc.devRef .tc main_arg4) = V (Proc.devRef .tc main_arg4) := by after_results_simp
theorem l3_keep_arg5 (V : Valuation τ sig (Elt F)) :
    StableHlo.after (hostOps5 (F := F)) V (Proc.devRef .tc main_arg5) = V (Proc.devRef .tc main_arg5) := by after_results_simp
theorem l3_keep_arg6 (V : Valuation τ sig (Elt F)) :
    StableHlo.after (hostOps5 (F := F)) V (Proc.devRef .tc main_arg6) = V (Proc.devRef .tc main_arg6) := by after_results_simp
theorem l3_keep_arg7 (V : Valuation τ sig (Elt F)) :
    StableHlo.after (hostOps5 (F := F)) V (Proc.devRef .tc main_arg7) = V (Proc.devRef .tc main_arg7) := by after_results_simp

end Cert.KernelIdeal.Host

end
-- ==== Proof.KValue.lean ====
/-
  The idealized kernel program's result array, as the network of the launch arrays.

  The run's boundaries are folded from the launch memory: a host stretch applies its array operations, a region
  replaces its output array by what its ten write-backs leave. Walking the boundaries in order, each layer's stage
  is read off (a region's output by the region lemmas, a stretch's buffers by the stretch lemmas), while the edges'
  node numbers, their weights and the still unread parameters are carried along unchanged, no stretch and no region
  writing them. At the last boundary the result array holds the three-layer network of the launch arrays; the only
  difference of spelling left is that the program makes each bias row by a reshape where the network's definition
  broadcasts the vector along the columns of a one-row matrix, the same row.
-/
import proofs.«130669_j1039382086189_1_alg».proof.Proof.KRegions
import proofs.«130669_j1039382086189_1_alg».proof.Proof.KHost

set_option maxRecDepth 16384

noncomputable section

namespace Cert.KernelIdeal.Value

open Idealize.ShloMosaic Idealize.ShloMosaic.TcCoe Idealize.SL.Sem
open Cert.KernelIdeal Cert.KernelIdeal.Gen

/-! ## Congruences of the network's stages (to rewrite their operands without opening them) -/

section Congr
variable {F : FTy → Type} [FloatOps F]
open Cert.Gcn

theorem dense_congr {x x' : Feat F} {w w' : Weight F} (hx : x = x') (hw : w = w') : dense x w = dense x' w' := by
  rw [hx, hw]

theorem aggregate_congr {s s' d d' : EdgeIx F} {n n' : EdgeVal F} {h h' : Feat F} (hs : s = s') (hd : d = d') (hn : n = n')
    (hh : h = h') : aggregate s d n h = aggregate s' d' n' h' := by
  rw [hs, hd, hn, hh]

theorem edgeScale_congr {s s' d d' : EdgeIx F} {v v' : NodeVal F} (hs : s = s') (hd : d = d') (hv : v = v') :
    edgeScale s d v = edgeScale s' d' v' := by
  rw [hs, hd, hv]

theorem addBias_congr {x x' : Feat F} {r r' : (⟨Cert.ReferenceIdeal.S1x64, .f32⟩ : BufTy).Contents (Elt F)} (hx : x = x') (hr : r = r') :
    addBias x r = addBias x' r' := by
  rw [hx, hr]

end Congr

variable (m : (ℓ : Loc nD τ sig) → Buf (Elt Ideal) ℓ) (ρ : Dev nD → PrngReg) (c : Dev nD)

/-! ## The launch arrays and the stages, named -/

/-- The edges' source node numbers. -/
abbrev src : Cert.Gcn.EdgeIx Ideal := Cert.Gcn.sources (F := Ideal) (m ((c : Thread nD τ).loc main_arg1))
/-- The edges' target node numbers. -/
abbrev dst : Cert.Gcn.EdgeIx Ideal := Cert.Gcn.targets (F := Ideal) (m ((c : Thread nD τ).loc main_arg1))
/-- The edges' weights. -/
abbrev nrm : Cert.Gcn.EdgeVal Ideal :=
  Cert.Gcn.edgeScale (F := Ideal) (src m c) (dst m c) (Cert.Gcn.invSqrtDegree (F := Ideal) (dst m c))
/-- A bias vector reshaped to one row, as the program stages it. -/
abbrev rowOf (b : Cert.Gcn.Bias Ideal) : (⟨Cert.ReferenceIdeal.S1x64, .f32⟩ : BufTy).Contents (Elt Ideal) :=
  shapeCast S1x64 b shapeCasts_S64_S1x64
/-- One layer's sum over the incoming edges plus its bias row. -/
abbrev layer (x : Cert.Gcn.Feat Ideal) (w : Cert.Gcn.Weight Ideal) (b : Cert.Gcn.Bias Ideal) : Cert.Gcn.Feat Ideal :=
  Cert.Gcn.addBias (F := Ideal) (Cert.Gcn.aggregate (F := Ideal) (src m c) (dst m c) (nrm m c) (Cert.Gcn.dense (F := Ideal) x w)) (rowOf b)
/-- The first layer's output. -/
abbrev out1 : Cert.Gcn.Feat Ideal := Cert.Gcn.relu (F := Ideal) (layer m c (m ((c : Thread nD τ).loc main_arg0)) (m ((c : Thread nD τ).loc main_arg2)) (m ((c : Thread nD τ).loc main_arg3)))
/-- The second layer's output. -/
abbrev out2 : Cert.Gcn.Feat Ideal := Cert.Gcn.relu (F := Ideal) (layer m c (out1 m c) (m ((c : Thread nD τ).loc main_arg4)) (m ((c : Thread nD τ).loc main_arg5)))
/-- The third layer's output. -/
abbrev out3 : Cert.Gcn.Feat Ideal := layer m c (out2 m c) (m ((c : Thread nD τ).loc main_arg6)) (m ((c : Thread nD τ).loc main_arg7))

/-! ## What is carried along every boundary -/

/-- The buffers later segments still read hold, at contents `W`, the edges' node numbers and weights and the launch
    arrays. -/
structure Live (W : Valuation τ sig (Elt Ideal)) : Prop where
  v3 : W (Proc.devRef .tc main_v3) = src m c
  v6 : W (Proc.devRef .tc main_v6) = dst m c
  v29 : W (Proc.devRef .tc main_v29) = nrm m c
  arg0 : W (Proc.devRef .tc main_arg0) = (m ((c : Thread nD τ).loc main_arg0))
  arg2 : W (Proc.devRef .tc main_arg2) = (m ((c : Thread nD τ).loc main_arg2))
  arg3 : W (Proc.devRef .tc main_arg3) = (m ((c : Thread nD τ).loc main_arg3))
  arg4 : W (Proc.devRef .tc main_arg4) = (m ((c : Thread nD τ).loc main_arg4))
  arg5 : W (Proc.devRef .tc main_arg5) = (m ((c : Thread nD τ).loc main_arg5))
  arg6 : W (Proc.devRef .tc main_arg6) = (m ((c : Thread nD τ).loc main_arg6))
  arg7 : W (Proc.devRef .tc main_arg7) = (m ((c : Thread nD τ).loc main_arg7))

/-! ## The boundaries, in order -/

/-- Before the first region: the node numbers, each node's deg^(-1/2) selected where the degree is positive, the
    edges' weights; the arguments as launched. -/
theorem live_W3 : Live m c (W3 m ρ c) := by
  have hs1 : W1 m ρ c (Proc.devRef .tc main_v3) = src m c := Host.pre_src (W0 m ρ c)
  have hd1 : W1 m ρ c (Proc.devRef .tc main_v6) = dst m c := Host.pre_dst (W0 m ρ c)
  have hs2 : W2 m ρ c (Proc.devRef .tc main_v3) = src m c := (Host.where_keep_v3 (W1 m ρ c)).trans hs1
  have hd2 : W2 m ρ c (Proc.devRef .tc main_v6) = dst m c := (Host.where_keep_v6 (W1 m ρ c)).trans hd1
  have h12 : W1 m ρ c (Proc.devRef .tc main_v12) = cmpf .ogt (Cert.Gcn.degree (F := Ideal) (dst m c))
      (broadcastInDim S50000 ![] bcast_S_S50000 (constant (F := Ideal) S_ .f32 0x00000000#32)) := Host.pre_pos (W0 m ρ c)
  have h13 : W1 m ρ c (Proc.devRef .tc main_v13) = Host.rsqrt (F := Ideal) (Cert.Gcn.degree (F := Ideal) (dst m c)) := Host.pre_rsqrt (W0 m ρ c)
  have hz : W1 m ρ c (Proc.devRef .tc main_cst_2) = constant (F := Ideal) S_ .f32 0x00000000#32 := Host.pre_zero (W0 m ρ c)
  have h14 : W2 m ρ c (Proc.devRef .tc main_v14) = Cert.Gcn.invSqrtDegree (F := Ideal) (dst m c) := by
    refine (Host.where_val (W1 m ρ c)).trans ?_
    rw [h12, h13, hz]
    rfl
  exact
   ⟨(Host.scale_keep_v3 (W2 m ρ c)).trans hs2,
    (Host.scale_keep_v6 (W2 m ρ c)).trans hd2,
    (Host.scale_val (W2 m ρ c)).trans (edgeScale_congr hs2 hd2 h14),
    (Host.scale_keep_arg0 (W2 m ρ c)).trans ((Host.where_keep_arg0 (W1 m ρ c)).trans (Host.pre_keep_arg0 (W0 m ρ c))),
    (Host.scale_keep_arg2 (W2 m ρ c)).trans ((Host.where_keep_arg2 (W1 m ρ c)).trans (Host.pre_keep_arg2 (W0 m ρ c))),
    (Host.scale_keep_arg3 (W2 m ρ c)).trans ((Host.where_keep_arg3 (W1 m ρ c)).trans (Host.pre_keep_arg3 (W0 m ρ c))),
    (Host.scale_keep_arg4 (W2 m ρ c)).trans ((Host.where_keep_arg4 (W1 m ρ c)).trans (Host.pre_keep_arg4 (W0 m ρ c))),
    (Host.scale_keep_arg5 (W2 m ρ c)).trans ((Host.where_keep_arg5 (W1 m ρ c)).trans (Host.pre_keep_arg5 (W0 m ρ c))),
    (Host.scale_keep_arg6 (W2 m ρ c)).trans ((Host.where_keep_arg6 (W1 m ρ c)).trans (Host.pre_keep_arg6 (W0 m ρ c))),
    (Host.scale_keep_arg7 (W2 m ρ c)).trans ((Host.where_keep_arg7 (W1 m ρ c)).trans (Host.pre_keep_arg7 (W0 m ρ c)))⟩

/-- Region 0 writes none of them. -/
theorem live_W4 : Live m c (W4 m ρ c) :=
  ⟨(W4_of_ne m ρ c main_v3 (by decide)).trans (live_W3 m ρ c).v3,
   (W4_of_ne m ρ c main_v6 (by decide)).trans (live_W3 m ρ c).v6,
   (W4_of_ne m ρ c main_v29 (by decide)).trans (live_W3 m ρ c).v29,
   ((W4_arr m ρ c 0).trans (((dat0 (V3 m ρ) c).arrAt_in 0 rfl _).trans (A_eq0 (V3 m ρ) c 0))).trans (live_W3 m ρ c).arg0,
   ((W4_arr m ρ c 1).trans (((dat0 (V3 m ρ) c).arrAt_in 1 rfl _).trans (A_eq0 (V3 m ρ) c 1))).trans (live_W3 m ρ c).arg2,
   (W4_of_ne m ρ c main_arg3 (by decide)).trans (live_W3 m ρ c).arg3,
   (W4_of_ne m ρ c main_arg4 (by decide)).trans (live_W3 m ρ c).arg4,
   (W4_of_ne m ρ c main_arg5 (by decide)).trans (live_W3 m ρ c).arg5,
   (W4_of_ne m ρ c main_arg6 (by decide)).trans (live_W3 m ρ c).arg6,
   (W4_of_ne m ρ c main_arg7 (by decide)).trans (live_W3 m ρ c).arg7⟩

/-- Region 0 leaves the features times the first weights. -/
theorem val_W4 : W4 m ρ c (Proc.devRef .tc main_v30) = Cert.Gcn.dense (F := Ideal) (m ((c : Thread nD τ).loc main_arg0)) (m ((c : Thread nD τ).loc main_arg2)) :=
  (W4_arr m ρ c 2).trans ((Regions.final0 (V3 m ρ) c).trans (dense_congr (live_W3 m ρ c).arg0 (live_W3 m ρ c).arg2))

/-- The stretch writes none of them. -/
theorem live_W5 : Live m c (W5 m ρ c) :=
  ⟨(Host.l1_keep_v3 (W4 m ρ c)).trans (live_W4 m ρ c).v3,
   (Host.l1_keep_v6 (W4 m ρ c)).trans (live_W4 m ρ c).v6,
   (Host.l1_keep_v29 (W4 m ρ c)).trans (live_W4 m ρ c).v29,
   (Host.l1_keep_arg0 (W4 m ρ c)).trans (live_W4 m ρ c).arg0,
   (Host.l1_keep_arg2 (W4 m ρ c)).trans (live_W4 m ρ c).arg2,
   (Host.l1_keep_arg3 (W4 m ρ c)).trans (live_W4 m ρ c).arg3,
   (Host.l1_keep_arg4 (W4 m ρ c)).trans (live_W4 m ρ c).arg4,
   (Host.l1_keep_arg5 (W4 m ρ c)).trans (live_W4 m ρ c).arg5,
   (Host.l1_keep_arg6 (W4 m ρ c)).trans (live_W4 m ρ c).arg6,
   (Host.l1_keep_arg7 (W4 m ρ c)).trans (live_W4 m ρ c).arg7⟩

/-- The first layer's sum over the incoming edges. -/
theorem agg_W5 : W5 m ρ c (Proc.devRef .tc main_v43)
    = Cert.Gcn.aggregate (F := Ideal) (src m c) (dst m c) (nrm m c) (Cert.Gcn.dense (F := Ideal) (m ((c : Thread nD τ).loc main_arg0)) (m ((c : Thread nD τ).loc main_arg2))) :=
  (Host.l1_agg (W4 m ρ c)).trans (aggregate_congr (live_W4 m ρ c).v3 (live_W4 m ρ c).v6 (live_W4 m ρ c).v29 (val_W4 m ρ c))

/-- The first layer's bias row. -/
theorem row_W5 : W5 m ρ c (Proc.devRef .tc main_v44) = rowOf (m ((c : Thread nD τ).loc main_arg3)) :=
  (Host.l1_row (W4 m ρ c)).trans (congrArg rowOf (live_W4 m ρ c).arg3)

/-- Region 1 writes none of them. -/
theorem live_W6 : Live m c (W6 m ρ c) :=
  ⟨(W6_of_ne m ρ c main_v3 (by decide)).trans (live_W5 m ρ c).v3,
   (W6_of_ne m ρ c main_v6 (by decide)).trans (live_W5 m ρ c).v6,
   (W6_of_ne m ρ c main_v29 (by decide)).trans (live_W5 m ρ c).v29,
   (W6_of_ne m ρ c main_arg0 (by decide)).trans (live_W5 m ρ c).arg0,
   (W6_of_ne m ρ c main_arg2 (by decide)).trans (live_W5 m ρ c).arg2,
   (W6_of_ne m ρ c main_arg3 (by decide)).trans (live_W5 m ρ c).arg3,
   (W6_of_ne m ρ c main_arg4 (by decide)).trans (live_W5 m ρ c).arg4,
   (W6_of_ne m ρ c main_arg5 (by decide)).trans (live_W5 m ρ c).arg5,
   (W6_of_ne m ρ c main_arg6 (by decide)).trans (live_W5 m ρ c).arg6,
   (W6_of_ne m ρ c main_arg7 (by decide)).trans (live_W5 m ρ c).arg7⟩

/-- Region 1 leaves the first layer's output. -/
theorem val_W6 : W6 m ρ c (Proc.devRef .tc main_v45) = out1 m c :=
  (W6_arr m ρ c 2).trans ((Regions.final1 (V5 m ρ) c).trans (congrArg (Cert.Gcn.relu (F := Ideal)) (addBias_congr (agg_W5 m ρ c) (row_W5 m ρ c))))

/-- Region 2 writes none of them. -/
theorem live_W7 : Live m c (W7 m ρ c) :=
  ⟨(W7_of_ne m ρ c main_v3 (by decide)).trans (live_W6 m ρ c).v3,
   (W7_of_ne m ρ c main_v6 (by decide)).trans (live_W6 m ρ c).v6,
   (W7_of_ne m ρ c main_v29 (by decide)).trans (live_W6 m ρ c).v29,
   (W7_of_ne m ρ c main_arg0 (by decide)).trans (live_W6 m ρ c).arg0,
   (W7_of_ne m ρ c main_arg2 (by decide)).trans (live_W6 m ρ c).arg2,
   (W7_of_ne m ρ c main_arg3 (by decide)).trans (live_W6 m ρ c).arg3,
   ((W7_arr m ρ c 1).trans (((dat2 (V6 m ρ) c).arrAt_in 1 rfl _).trans (A_eq2 (V6 m ρ) c 1))).trans (live_W6 m ρ c).arg4,
   (W7_of_ne m ρ c main_arg5 (by decide)).trans (live_W6 m ρ c).arg5,
   (W7_of_ne m ρ c main_arg6 (by decide)).trans (live_W6 m ρ c).arg6,
   (W7_of_ne m ρ c main_arg7 (by decide)).trans (live_W6 m ρ c).arg7⟩

/-- Region 2 leaves the first layer's output times the second weights. -/
theorem val_W7 : W7 m ρ c (Proc.devRef .tc main_v46) = Cert.Gcn.dense (F := Ideal) (out1 m c) (m ((c : Thread nD τ).loc main_arg4)) :=
  (W7_arr m ρ c 2).trans ((Regions.final2 (V6 m ρ) c).trans (dense_congr (val_W6 m ρ c) (live_W6 m ρ c).arg4))

/-- The stretch writes none of them. -/
theorem live_W8 : Live m c (W8 m ρ c) :=
  ⟨(Host.l2_keep_v3 (W7 m ρ c)).trans (live_W7 m ρ c).v3,
   (Host.l2_keep_v6 (W7 m ρ c)).trans (live_W7 m ρ c).v6,
   (Host.l2_keep_v29 (W7 m ρ c)).trans (live_W7 m ρ c).v29,
   (Host.l2_keep_arg0 (W7 m ρ c)).trans (live_W7 m ρ c).arg0,
   (Host.l2_keep_arg2 (W7 m ρ c)).trans (live_W7 m ρ c).arg2,
   (Host.l2_keep_arg3 (W7 m ρ c)).trans (live_W7 m ρ c).arg3,
   (Host.l2_keep_arg4 (W7 m ρ c)).trans (live_W7 m ρ c).arg4,
   (Host.l2_keep_arg5 (W7 m ρ c)).trans (live_W7 m ρ c).arg5,
   (Host.l2_keep_arg6 (W7 m ρ c)).trans (live_W7 m ρ c).arg6,
   (Host.l2_keep_arg7 (W7 m ρ c)).trans (live_W7 m ρ c).arg7⟩

/-- The second layer's sum over the incoming edges. -/
theorem agg_W8 : W8 m ρ c (Proc.devRef .tc main_v59)
    = Cert.Gcn.aggregate (F := Ideal) (src m c) (dst m c) (nrm m c) (Cert.Gcn.dense (F := Ideal) (out1 m c) (m ((c : Thread nD τ).loc main_arg4))) :=
  (Host.l2_agg (W7 m ρ c)).trans (aggregate_congr (live_W7 m ρ c).v3 (live_W7 m ρ c).v6 (live_W7 m ρ c).v29 (val_W7 m ρ c))

/-- The second layer's bias row. -/
theorem row_W8 : W8 m ρ c (Proc.devRef .tc main_v60) = rowOf (m ((c : Thread nD τ).loc main_arg5)) :=
  (Host.l2_row (W7 m ρ c)).trans (congrArg rowOf (live_W7 m ρ c).arg5)

/-- Region 3 writes none of them. -/
theorem live_W9 : Live m c (W9 m ρ c) :=
  ⟨(W9_of_ne m ρ c main_v3 (by decide)).trans (live_W8 m ρ c).v3,
   (W9_of_ne m ρ c main_v6 (by decide)).trans (live_W8 m ρ c).v6,
   (W9_of_ne m ρ c main_v29 (by decide)).trans (live_W8 m ρ c).v29,
   (W9_of_ne m ρ c main_arg0 (by decide)).trans (live_W8 m ρ c).arg0,
   (W9_of_ne m ρ c main_arg2 (by decide)).trans (live_W8 m ρ c).arg2,
   (W9_of_ne m ρ c main_arg3 (by decide)).trans (live_W8 m ρ c).arg3,
   (W9_of_ne m ρ c main_arg4 (by decide)).trans (live_W8 m ρ c).arg4,
   (W9_of_ne m ρ c main_arg5 (by decide)).trans (live_W8 m ρ c).arg5,
   (W9_of_ne m ρ c main_arg6 (by decide)).trans (live_W8 m ρ c).arg6,
   (W9_of_ne m ρ c main_arg7 (by decide)).trans (live_W8 m ρ c).arg7⟩

/-- Region 3 leaves the second layer's output. -/
theorem val_W9 : W9 m ρ c (Proc.devRef .tc main_v61) = out2 m c :=
  (W9_arr m ρ c 2).trans ((Regions.final3 (V8 m ρ) c).trans (congrArg (Cert.Gcn.relu (F := Ideal)) (addBias_congr (agg_W8 m ρ c) (row_W8 m ρ c))))

/-- Region 4 writes none of them. -/
theorem live_W10 : Live m c (W10 m ρ c) :=
  ⟨(W10_of_ne m ρ c main_v3 (by decide)).trans (live_W9 m ρ c).v3,
   (W10_of_ne m ρ c main_v6 (by decide)).trans (live_W9 m ρ c).v6,
   (W10_of_ne m ρ c main_v29 (by decide)).trans (live_W9 m ρ c).v29,
   (W10_of_ne m ρ c main_arg0 (by decide)).trans (live_W9 m ρ c).arg0,
   (W10_of_ne m ρ c main_arg2 (by decide)).trans (live_W9 m ρ c).arg2,
   (W10_of_ne m ρ c main_arg3 (by decide)).trans (live_W9 m ρ c).arg3,
   (W10_of_ne m ρ c main_arg4 (by decide)).trans (live_W9 m ρ c).arg4,
   (W10_of_ne m ρ c main_arg5 (by decide)).trans (live_W9 m ρ c).arg5,
   ((W10_arr m ρ c 1).trans (((dat4 (V9 m ρ) c).arrAt_in 1 rfl _).trans (A_eq4 (V9 m ρ) c 1))).trans (live_W9 m ρ c).arg6,
   (W10_of_ne m ρ c main_arg7 (by decide)).trans (live_W9 m ρ c).arg7⟩

/-- Region 4 leaves the second layer's output times the third weights. -/
theorem val_W10 : W10 m ρ c (Proc.devRef .tc main_v62) = Cert.Gcn.dense (F := Ideal) (out2 m c) (m ((c : Thread nD τ).loc main_arg6)) :=
  (W10_arr m ρ c 2).trans ((Regions.final4 (V9 m ρ) c).trans (dense_congr (val_W9 m ρ c) (live_W9 m ρ c).arg6))

/-- The third layer's sum over the incoming edges. -/
theorem agg_W11 : W11 m ρ c (Proc.devRef .tc main_v75)
    = Cert.Gcn.aggregate (F := Ideal) (src m c) (dst m c) (nrm m c) (Cert.Gcn.dense (F := Ideal) (out2 m c) (m ((c : Thread nD τ).loc main_arg6))) :=
  (Host.l3_agg (W10 m ρ c)).trans (aggregate_congr (live_W10 m ρ c).v3 (live_W10 m ρ c).v6 (live_W10 m ρ c).v29 (val_W10 m ρ c))

/-- The third layer's bias row. -/
theorem row_W11 : W11 m ρ c (Proc.devRef .tc main_v76) = rowOf (m ((c : Thread nD τ).loc main_arg7)) :=
  (Host.l3_row (W10 m ρ c)).trans (congrArg rowOf (live_W10 m ρ c).arg7)

/-- Region 5 leaves the third layer's output: the program's result. -/
theorem val_W12 : W12 m ρ c (Proc.devRef .tc main_v77) = out3 m c :=
  (W12_arr m ρ c 2).trans ((Regions.final5 (V11 m ρ) c).trans (addBias_congr (agg_W11 m ρ c) (row_W11 m ρ c)))

/-! ## The result is the network -/

/-- A bias vector reshaped to one row is the vector broadcast along the columns of a one-row matrix. -/
theorem rowOf_eq (b : Cert.Gcn.Bias Ideal) : rowOf b = Cert.Gcn.biasRow (F := Ideal) b :=
  Cert.LibBiasRows.castRow_eq b shapeCasts_S64_S1x64 Cert.ReferenceIdeal.Gen.bcast_S64_S1x64_1

/-- The result array at the last boundary is the three-layer network of the launch arrays. -/
theorem result_eq : W12 m ρ c (Proc.devRef .tc main_v77)
    = Cert.Gcn.net (F := Ideal) (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [val_W12]
  unfold out3 out2 out1 layer Cert.Gcn.net Cert.Gcn.netWith Cert.Gcn.convWith
  rw [rowOf_eq, rowOf_eq, rowOf_eq]

end Cert.KernelIdeal.Value

end
-- ==== Proof.RefValue.lean ====
/-
  The idealized reference program's result array, as the network of the launch arrays.

  The reference is one line of 144 array operations. It is read in four stretches: the first builds the edges' source
  and target node numbers and each node's deg^(-1/2); each of the other three is one layer — the product with the
  layer's weights, the edges' weights computed again from the node numbers, the gather at the sources, the scaling,
  the sum into the targets, the bias, and (first two layers) the maximum with zero. Each stretch is read from ANY
  starting contents `V` of the buffers as one of the network's functions of a few buffers of `V`; a buffer a stretch
  does not write keeps `V`'s contents. Chaining the four stretches from the launch contents gives the network of the
  launch arrays at the result buffer, and the launch contents themselves at the arguments.
-/
import proofs.«130669_j1039382086189_1_alg».proof.Proof.RefRun
import proofs.«130669_j1039382086189_1_alg».proof.Proof.GcnSpec

set_option maxRecDepth 16384
set_option maxHeartbeats 4000000

noncomputable section

namespace Cert.ReferenceIdeal.RefValue

open Idealize.ShloMosaic Idealize.ShloMosaic.TcCoe Idealize.SL.Sem
open Cert.ReferenceIdeal Cert.ReferenceIdeal.Gen Cert.ReferenceIdeal.RefRun
open Idealize.ShloMosaic.StableHlo

variable {F : FTy → Type} [FloatOps F]

/-! ## The line in four stretches -/

/-- Two lines of operations run one after the other are their concatenation run as one. -/
theorem after_cat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_cat l₁ l₂]

/-- The whole line is its first 21 operations, then 42, then 42, then the last 39. -/
theorem after_ops (V : Valuation τ sig (Elt F)) :
    after (ops (F := F)) V = after (List.drop 42 (List.drop 42 (List.drop 21 (ops (F := F))))) (after (List.take 42 (List.drop 42 (List.drop 21 (ops (F := F))))) (after (List.take 42 (List.drop 21 (ops (F := F)))) (after (List.take 21 (ops (F := F))) V))) := by
  rw [← after_cat, ← after_cat, ← after_cat, List.take_append_drop, List.take_append_drop, List.take_append_drop]

/-! ## The first stretch: node numbers and deg^(-1/2) -/

theorem pre_src (V : Valuation τ sig (Elt F)) :
    after (List.take 21 (ops (F := F))) V (Proc.devRef .tc main_v3) = Cert.Gcn.sources (V (Proc.devRef .tc main_arg1)) := by
  simp only [ops, List.take_succ_cons, List.take_zero, List.drop_succ_cons, List.drop_zero]
  after_results
  rfl

theorem pre_dst (V : Valuation τ sig (Elt F)) :
    after (List.take 21 (ops (F := F))) V (Proc.devRef .tc main_v6) = Cert.Gcn.targets (V (Proc.devRef .tc main_arg1)) := by
  simp only [ops, List.take_succ_cons, List.take_zero, List.drop_succ_cons, List.drop_zero]
  after_results
  rfl

theorem pre_scale (V : Valuation τ sig (Elt F)) :
    after (List.take 21 (ops (F := F))) V (Proc.devRef .tc main_v14) = Cert.Gcn.invSqrtDegree (Cert.Gcn.targets (V (Proc.devRef .tc main_arg1))) := by
  simp only [ops, List.take_succ_cons, List.take_zero, List.drop_succ_cons, List.drop_zero]
  after_results
  rfl

theorem pre_keep_arg0 (V : Valuation τ sig (Elt F)) :
    after (List.take 21 (ops (F := F))) V (Proc.devRef .tc main_arg0) = V (Proc.devRef .tc main_arg0) := by
  simp only [ops, List.take_succ_cons, List.take_zero, List.drop_succ_cons, List.drop_zero]
  after_results_simp
theorem pre_keep_arg2 (V : Valuation τ sig (Elt F)) :
    after (List.take 21 (ops (F := F))) V (Proc.devRef .tc main_arg2) = V (Proc.devRef .tc main_arg2) := by
  simp only [ops, List.take_succ_cons, List.take_zero, List.drop_succ_cons, List.drop_zero]
  after_results_simp
theorem pre_keep_arg3 (V : Valuation τ sig (Elt F)) :
    after (List.take 21 (ops (F := F))) V (Proc.devRef .tc main_arg3) = V (Proc.devRef .tc main_arg3) := by
  simp only [ops, List.take_succ_cons, List.take_zero, List.drop_succ_cons, List.drop_zero]
  after_results_simp
theorem pre_keep_arg4 (V : Valuation τ sig (Elt F)) :
    after (List.take 21 (ops (F := F))) V (Proc.devRef .tc main_arg4) = V (Proc.devRef .tc main_arg4) := by
  simp only [ops, List.take_succ_cons, List.take_zero, List.drop_succ_cons, List.drop_zero]
  after_results_simp
theorem pre_keep_arg5 (V : Valuation τ sig (Elt F)) :
    after (List.take 21 (ops (F := F))) V (Proc.devRef .tc main_arg5) = V (Proc.devRef .tc main_arg5) := by
  simp only [ops, List.take_succ_cons, List.take_zero, List.drop_succ_cons, List.drop_zero]
  after_results_simp
theorem pre_keep_arg6 (V : Valuation τ sig (Elt F)) :
    after (List.take 21 (ops (F := F))) V (Proc.devRef .tc main_arg6) = V (Proc.devRef .tc main_arg6) := by
  simp only [ops, List.take_succ_cons, List.take_zero, List.drop_succ_cons, List.drop_zero]
  after_results_simp
theorem pre_keep_arg7 (V : Valuation τ sig (Elt F)) :
    after (List.take 21 (ops (F := F))) V (Proc.devRef .tc main_arg7) = V (Proc.devRef .tc main_arg7) := by
  simp only [ops, List.take_succ_cons, List.take_zero, List.drop_succ_cons, List.drop_zero]
  after_results_simp

/-! ## The three layers -/

theorem lay1_val (V : Valuation τ sig (Elt F)) :
    after (List.take 42 (List.drop 21 (ops (F := F)))) V (Proc.devRef .tc main_v47)
      = Cert.Gcn.relu (Cert.Gcn.convWith (V (Proc.devRef .tc main_v3)) (V (Proc.devRef .tc main_v6))
          (Cert.Gcn.edgeScale (V (Proc.devRef .tc main_v3)) (V (Proc.devRef .tc main_v6)) (V (Proc.devRef .tc main_v14)))
          (V (Proc.devRef .tc main_arg0)) (V (Proc.devRef .tc main_arg2)) (V (Proc.devRef .tc main_arg3))) := by
  simp only [ops, List.take_succ_cons, List.take_zero, List.drop_succ_cons, List.drop_zero]
  after_results_simp
  rfl

theorem lay1_keep_v3 (V : Valuation τ sig (Elt F)) :
    after (List.take 42 (List.drop 21 (ops (F := F)))) V (Proc.devRef .tc main_v3) = V (Proc.devRef .tc main_v3) := by
  simp only [ops, List.take_succ_cons, List.take_zero, List.drop_succ_cons, List.drop_zero]
  after_results_simp
theorem lay1_keep_v6 (V : Valuation τ sig (Elt F)) :
    after (List.take 42 (List.drop 21 (ops (F := F)))) V (Proc.devRef .tc main_v6) = V (Proc.devRef .tc main_v6) := by
  simp only [ops, List.take_succ_cons, List.take_zero, List.drop_succ_cons, List.drop_zero]
  after_results_simp
theorem lay1_keep_v14 (V : Valuation τ sig (Elt F)) :
    after (List.take 42 (List.drop 21 (ops (F := F)))) V (Proc.devRef .tc main_v14) = V (Proc.devRef .tc main_v14) := by
  simp only [ops, List.take_succ_cons, List.take_zero, List.drop_succ_cons, List.drop_zero]
  after_results_simp
theorem lay1_keep_arg4 (V : Valuation τ sig (Elt F)) :
    after (List.take 42 (List.drop 21 (ops (F := F)))) V (Proc.devRef .tc main_arg4) = V (Proc.devRef .tc main_arg4) := by
  simp only [ops, List.take_succ_cons, List.take_zero, List.drop_succ_cons, List.drop_zero]
  after_results_simp
theorem lay1_keep_arg5 (V : Valuation τ sig (Elt F)) :
    after (List.take 42 (List.drop 21 (ops (F := F)))) V (Proc.devRef .tc main_arg5) = V (Proc.devRef .tc main_arg5) := by
  simp only [ops, List.take_succ_cons, List.take_zero, List.drop_succ_cons, List.drop_zero]
  after_results_simp
theorem lay1_keep_arg6 (V : Valuation τ sig (Elt F)) :
    after (List.take 42 (List.drop 21 (ops (F := F)))) V (Proc.devRef .tc main_arg6) = V (Proc.devRef .tc main_arg6) := by
  simp only [ops, List.take_succ_cons, List.take_zero, List.drop_succ_cons, List.drop_zero]
  after_results_simp
theorem lay1_keep_arg7 (V : Valuation τ sig (Elt F)) :
    after (List.take 42 (List.drop 21 (ops (F := F)))) V (Proc.devRef .tc main_arg7) = V (Proc.devRef .tc main_arg7) := by
  simp only [ops, List.take_succ_cons, List.take_zero, List.drop_succ_cons, List.drop_zero]
  after_results_simp

theorem lay2_val (V : Valuation τ sig (Elt F)) :
    after (List.take 42 (List.drop 42 (List.drop 21 (ops (F := F))))) V (Proc.devRef .tc main_v80)
      = Cert.Gcn.relu (Cert.Gcn.convWith (V (Proc.devRef .tc main_v3)) (V (Proc.devRef .tc main_v6))
          (Cert.Gcn.edgeScale (V (Proc.devRef .tc main_v3)) (V (Proc.devRef .tc main_v6)) (V (Proc.devRef .tc main_v14)))
          (V (Proc.devRef .tc main_v47)) (V (Proc.devRef .tc main_arg4)) (V (Proc.devRef .tc main_arg5))) := by
  simp only [ops, List.take_succ_cons, List.take_zero, List.drop_succ_cons, List.drop_zero]
  after_results_simp
  rfl

theorem lay2_keep_v3 (V : Valuation τ sig (Elt F)) :
    after (List.take 42 (List.drop 42 (List.drop 21 (ops (F := F))))) V (Proc.devRef .tc main_v3) = V (Proc.devRef .tc main_v3) := by
  simp only [ops, List.take_succ_cons, List.take_zero, List.drop_succ_cons, List.drop_zero]
  after_results_simp
theorem lay2_keep_v6 (V : Valuation τ sig (Elt F)) :
    after (List.take 42 (List.drop 42 (List.drop 21 (ops (F := F))))) V (Proc.devRef .tc main_v6) = V (Proc.devRef .tc main_v6) := by
  simp only [ops, List.take_succ_cons, List.take_zero, List.drop_succ_cons, List.drop_zero]
  after_results_simp
theorem lay2_keep_v14 (V : Valuation τ sig (Elt F)) :
    after (List.take 42 (List.drop 42 (List.drop 21 (ops (F := F))))) V (Proc.devRef .tc main_v14) = V (Proc.devRef .tc main_v14) := by
  simp only [ops, List.take_succ_cons, List.take_zero, List.drop_succ_cons, List.drop_zero]
  after_results_simp
theorem lay2_keep_arg6 (V : Valuation τ sig (Elt F)) :
    after (List.take 42 (List.drop 42 (List.drop 21 (ops (F := F))))) V (Proc.devRef .tc main_arg6) = V (Proc.devRef .tc main_arg6) := by
  simp only [ops, List.take_succ_cons, List.take_zero, List.drop_succ_cons, List.drop_zero]
  after_results_simp
theorem lay2_keep_arg7 (V : Valuation τ sig (Elt F)) :
    after (List.take 42 (List.drop 42 (List.drop 21 (ops (F := F))))) V (Proc.devRef .tc main_arg7) = V (Proc.devRef .tc main_arg7) := by
  simp only [ops, List.take_succ_cons, List.take_zero, List.drop_succ_cons, List.drop_zero]
  after_results_simp

theorem lay3_val (V : Valuation τ sig (Elt F)) :
    after (List.drop 42 (List.drop 42 (List.drop 21 (ops (F := F))))) V (Proc.devRef .tc main_v112)
      = Cert.Gcn.convWith (V (Proc.devRef .tc main_v3)) (V (Proc.devRef .tc main_v6))
          (Cert.Gcn.edgeScale (V (Proc.devRef .tc main_v3)) (V (Proc.devRef .tc main_v6)) (V (Proc.devRef .tc main_v14)))
          (V (Proc.devRef .tc main_v80)) (V (Proc.devRef .tc main_arg6)) (V (Proc.devRef .tc main_arg7)) := by
  simp only [ops, List.take_succ_cons, List.take_zero, List.drop_succ_cons, List.drop_zero]
  after_results_simp
  rfl

/-! ## The whole line from the launch contents -/

variable (m : (ℓ : Loc nD τ sig) → Buf (Elt F) ℓ) (c : Dev nD)

/-- The result buffer ends at the network of the launch arrays. -/
theorem result_eq : after (ops (F := F)) (launchContents m c) (Proc.devRef .tc main_v112)
    = Cert.Gcn.net (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops, lay3_val,
    lay2_keep_v3, lay2_keep_v6, lay2_keep_v14, lay2_keep_arg6, lay2_keep_arg7, lay2_val,
    lay1_keep_v3, lay1_keep_v6, lay1_keep_v14, lay1_keep_arg4, lay1_keep_arg5, lay1_val,
    pre_src, pre_dst, pre_scale, pre_keep_arg0, pre_keep_arg2, pre_keep_arg3,
    lay1_keep_arg6, lay1_keep_arg7, pre_keep_arg4, pre_keep_arg5, pre_keep_arg6, pre_keep_arg7]
  rfl

/-- No operation of the line writes an argument array. -/
theorem args_kept : after (ops (F := F)) (launchContents m c) (Proc.devRef .tc main_arg0) = (m ((c.tc : Thread nD τ).loc main_arg0))
    ∧ after (ops (F := F)) (launchContents m c) (Proc.devRef .tc main_arg1) = (m ((c.tc : Thread nD τ).loc main_arg1))
    ∧ after (ops (F := F)) (launchContents m c) (Proc.devRef .tc main_arg2) = (m ((c.tc : Thread nD τ).loc main_arg2))
    ∧ after (ops (F := F)) (launchContents m c) (Proc.devRef .tc main_arg3) = (m ((c.tc : Thread nD τ).loc main_arg3))
    ∧ after (ops (F := F)) (launchContents m c) (Proc.devRef .tc main_arg4) = (m ((c.tc : Thread nD τ).loc main_arg4))
    ∧ after (ops (F := F)) (launchContents m c) (Proc.devRef .tc main_arg5) = (m ((c.tc : Thread nD τ).loc main_arg5))
    ∧ after (ops (F := F)) (launchContents m c) (Proc.devRef .tc main_arg6) = (m ((c.tc : Thread nD τ).loc main_arg6))
    ∧ after (ops (F := F)) (launchContents m c) (Proc.devRef .tc main_arg7) = (m ((c.tc : Thread nD τ).loc main_arg7)) := by
  refine ⟨?_, ?_, ?_, ?_, ?_, ?_, ?_, ?_⟩ <;> (after_results_simp <;> rfl)

end Cert.ReferenceIdeal.RefValue

end
-- ==== Proof.lean ====
/-
  The certificate's claim: the tiled three-layer graph convolution and its plain array reference compute the same
  array on the extended reals.

  Both programs build, from the edge list with one self-loop per node appended, the edges' source and target node
  numbers, each node's deg^(-1/2) and each edge's weight, and then run three layers: features times weights, the
  weighted sum over the incoming edges, the bias, and (first two layers) the maximum with zero. The kernel program
  runs the product and the bias(+maximum) of every layer as tiled regions of ten blocks of 5000 node rows, narrowing
  the product's operands to a shorter float format first; on the extended reals a change of format is the identity,
  a block of rows of a product is the product of that block of rows, and bias and maximum act entry by entry, so each
  region leaves exactly the reference's stage of the whole arrays. The gather, the scaling and the sum over edges are
  the same host operations in both programs and are never opened. No algebraic law is used, so the precondition (all
  float inputs finite) is not needed for the value; the frames come from the generated frame proofs (kernel programs)
  and from the reference's run.
-/
import proofs.«130669_j1039382086189_1_alg».proof.Defs
import proofs.«130669_j1039382086189_1_alg».proof.Proof.Gen.Kernel
import proofs.«130669_j1039382086189_1_alg».proof.Proof.Gen.Kernel.Frame
import proofs.«130669_j1039382086189_1_alg».proof.Proof.Gen.KernelIdeal
import proofs.«130669_j1039382086189_1_alg».proof.Proof.Gen.KernelIdeal.Frame
import proofs.«130669_j1039382086189_1_alg».proof.Proof.Gen.ReferenceIdeal
import proofs.«130669_j1039382086189_1_alg».proof.Proof.Gen.Pre_finite_inputs
import proofs.«130669_j1039382086189_1_alg».proof.Proof.KRun
import proofs.«130669_j1039382086189_1_alg».proof.Proof.KValue
import proofs.«130669_j1039382086189_1_alg».proof.Proof.RefRun
import proofs.«130669_j1039382086189_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is one line of array operations none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.args_kept m c).1,
     (h c Cert.ReferenceIdeal.main_arg1).trans (Cert.ReferenceIdeal.RefValue.args_kept m c).2.1,
     (h c Cert.ReferenceIdeal.main_arg2).trans (Cert.ReferenceIdeal.RefValue.args_kept m c).2.2.1,
     (h c Cert.ReferenceIdeal.main_arg3).trans (Cert.ReferenceIdeal.RefValue.args_kept m c).2.2.2.1,
     (h c Cert.ReferenceIdeal.main_arg4).trans (Cert.ReferenceIdeal.RefValue.args_kept m c).2.2.2.2.1,
     (h c Cert.ReferenceIdeal.main_arg5).trans (Cert.ReferenceIdeal.RefValue.args_kept m c).2.2.2.2.2.1,
     (h c Cert.ReferenceIdeal.main_arg6).trans (Cert.ReferenceIdeal.RefValue.args_kept m c).2.2.2.2.2.2.1,
     (h c Cert.ReferenceIdeal.main_arg7).trans (Cert.ReferenceIdeal.RefValue.args_kept m c).2.2.2.2.2.2.2⟩)
    (Cert.ReferenceIdeal.RefRun.run_fold (F := Ideal) m ρ)

/-- The ideal pass rewrote nothing. -/
theorem preserves : Cert.preserves_Kernel_KernelIdeal := trivial

/-- Both idealized programs end with the three-layer network of the launch arrays in their result, and the launch
    arrays agree. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c Cert.KernelIdeal.main_v77 (by decide)).trans (Cert.KernelIdeal.Value.result_eq m ρ c),
       (h c Cert.KernelIdeal.main_arg0 (by decide)).trans (Cert.KernelIdeal.Gen.W12_main_arg0 m ρ c),
       (h c Cert.KernelIdeal.main_arg1 (by decide)).trans (Cert.KernelIdeal.Gen.W12_main_arg1 m ρ c),
       (h c Cert.KernelIdeal.main_arg2 (by decide)).trans (Cert.KernelIdeal.Gen.W12_main_arg2 m ρ c),
       (h c Cert.KernelIdeal.main_arg3 (by decide)).trans (Cert.KernelIdeal.Gen.W12_main_arg3 m ρ c),
       (h c Cert.KernelIdeal.main_arg4 (by decide)).trans (Cert.KernelIdeal.Gen.W12_main_arg4 m ρ c),
       (h c Cert.KernelIdeal.main_arg5 (by decide)).trans (Cert.KernelIdeal.Gen.W12_main_arg5 m ρ c),
       (h c Cert.KernelIdeal.main_arg6 (by decide)).trans (Cert.KernelIdeal.Gen.W12_main_arg6 m ρ c),
       (h c Cert.KernelIdeal.main_arg7 (by decide)).trans (Cert.KernelIdeal.Gen.W12_main_arg7 m ρ c)⟩)
      (Cert.KernelIdeal.Run.run_all (F := Ideal) m ρ)
  · refine (θ_run Cert.ReferenceIdeal.defs _ _).mono (fun r h c =>
      ⟨(h c Cert.ReferenceIdeal.main_v112).trans ((Cert.ReferenceIdeal.RefValue.result_eq m' c).trans ?_),
       (h c Cert.ReferenceIdeal.main_arg0).trans (Cert.ReferenceIdeal.RefValue.args_kept m' c).1,
       (h c Cert.ReferenceIdeal.main_arg1).trans (Cert.ReferenceIdeal.RefValue.args_kept m' c).2.1,
       (h c Cert.ReferenceIdeal.main_arg2).trans (Cert.ReferenceIdeal.RefValue.args_kept m' c).2.2.1,
       (h c Cert.ReferenceIdeal.main_arg3).trans (Cert.ReferenceIdeal.RefValue.args_kept m' c).2.2.2.1,
       (h c Cert.ReferenceIdeal.main_arg4).trans (Cert.ReferenceIdeal.RefValue.args_kept m' c).2.2.2.2.1,
       (h c Cert.ReferenceIdeal.main_arg5).trans (Cert.ReferenceIdeal.RefValue.args_kept m' c).2.2.2.2.2.1,
       (h c Cert.ReferenceIdeal.main_arg6).trans (Cert.ReferenceIdeal.RefValue.args_kept m' c).2.2.2.2.2.2.1,
       (h c Cert.ReferenceIdeal.main_arg7).trans (Cert.ReferenceIdeal.RefValue.args_kept m' c).2.2.2.2.2.2.2⟩)
      (Cert.ReferenceIdeal.RefRun.run_fold (F := Ideal) m' ρ')
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
